-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S5000x64 : Shape := ⟨2, ![5000, 64]⟩
abbrev S64x64 : Shape := ⟨2, ![64, 64]⟩
abbrev S5x500000 : Shape := ⟨2, ![5, 500000]⟩
abbrev S1000000 : Shape := ⟨1, ![1000000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S5000x64 : S_.BroadcastsInDim S5000x64 (![] : Fin 0 → Fin S5000x64.rank)
  reducesTo_S5000x64_S_d0_1 : S5000x64.ReducesTo [0, 1] S_
  bcast_S_S64x64 : S_.BroadcastsInDim S64x64 (![] : Fin 0 → Fin S64x64.rank)
  reducesTo_S64x64_S_d0_1 : S64x64.ReducesTo [0, 1] S_
  bcast_S_S5x500000 : S_.BroadcastsInDim S5x500000 (![] : Fin 0 → Fin S5x500000.rank)
  reducesTo_S5x500000_S_d0_1 : S5x500000.ReducesTo [0, 1] S_
  bcast_S_S1000000 : S_.BroadcastsInDim S1000000 (![] : Fin 0 → Fin S1000000.rank)
  reducesTo_S1000000_S_d0 : S1000000.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg26 : FVec F S500000 .f32) (main_v63 : IVec S_ 1) (main_v67 : IVec S_ 1) : IVec S_ 1 :=
  let main_v68 : IVec S_ 1 := andi main_v63 main_v67
  let main_v69 : FVec F S500000 .f32 := Host.absf main_arg26
  let main_cst_26 : FVec F S_ .f32 := constant S_ .f32 0x7F800000#32
  let main_v70 : FVec F S500000 .f32 := broadcastInDim S500000 ![] bcast_S_S500000 main_cst_26
  let main_v71 : IVec S500000 1 := cmpf .olt main_v69 main_v70
  let main_c_27 : IVec S_ 1 := constantI S_ 1 1#1
  let main_v72 : IVec S_ 1 := (fun x v => Host.reduce IntOp.andi x v reducesTo_S500000_S_d0 h_S_) main_v71 main_c_27
  let main_v73 : IVec S_ 1 := andi main_v68 main_v72
  main_v73

def fn_part3 {F : FTy → Type} [FloatOps F] (main_arg17 : FVec F S1000000 .f32) (main_arg20 : FVec F S500000 .f32) (main_arg23 : FVec F S1000000 .f32) (main_arg26 : FVec F S500000 .f32) (main_v48 : IVec S_ 1) (main_v49 : FVec F S5x500000 .f32) (main_v50 : FVec F S5x500000 .f32) : IVec S_ 1 :=
  let main_v51 : IVec S5x500000 1 := cmpf .olt main_v49 main_v50
  let main_c_19 : IVec S_ 1 := constantI S_ 1 1#1
  let main_v52 : IVec S_ 1 := (fun x v => Host.reduce IntOp.andi x v reducesTo_S5x500000_S_d0_1 h_S_) main_v51 main_c_19
  let main_v53 : IVec S_ 1 := andi main_v48 main_v52
  let main_v54 : FVec F S1000000 .f32 := Host.absf main_arg17
  let main_cst_20 : FVec F S_ .f32 := constant S_ .f32 0x7F800000#32
  let main_v55 : FVec F S1000000 .f32 := broadcastInDim S1000000 ![] bcast_S_S1000000 main_cst_20
  let main_v56 : IVec S1000000 1 := cmpf .olt main_v54 main_v55
  let main_c_21 : IVec S_ 1 := constantI S_ 1 1#1
  let main_v57 : IVec S_ 1 := (fun x v => Host.reduce IntOp.andi x v reducesTo_S1000000_S_d0 h_S_) main_v56 main_c_21
  let main_v58 : IVec S_ 1 := andi main_v53 main_v57
  let main_v59 : FVec F S500000 .f32 := Host.absf main_arg20
  let main_cst_22 : FVec F S_ .f32 := constant S_ .f32 0x7F800000#32
  let main_v60 : FVec F S500000 .f32 := broadcastInDim S500000 ![] bcast_S_S500000 main_cst_22
  let main_v61 : IVec S500000 1 := cmpf .olt main_v59 main_v60
  let main_c_23 : IVec S_ 1 := constantI S_ 1 1#1
  let main_v62 : IVec S_ 1 := (fun x v => Host.reduce IntOp.andi x v reducesTo_S500000_S_d0 h_S_) main_v61 main_c_23
  let main_v63 : IVec S_ 1 := andi main_v58 main_v62
  let main_v64 : FVec F S1000000 .f32 := Host.absf main_arg23
  let main_cst_24 : FVec F S_ .f32 := constant S_ .f32 0x7F800000#32
  let main_v65 : FVec F S1000000 .f32 := broadcastInDim S1000000 ![] bcast_S_S1000000 main_cst_24
  let main_v66 : IVec S1000000 1 := cmpf .olt main_v64 main_v65
  let main_c_25 : IVec S_ 1 := constantI S_ 1 1#1
  let main_v67 : IVec S_ 1 := (fun x v => Host.reduce IntOp.andi x v reducesTo_S1000000_S_d0 h_S_) main_v66 main_c_25
  fn_part4 (F := F) main_arg26 main_v63 main_v67

def fn_part2 {F : FTy → Type} [FloatOps F] (main_arg7 : FVec F S64x64 .f32) (main_arg8 : FVec F S64x64 .f32) (main_arg11 : FVec F S5x500000 .f32) (main_arg14 : FVec F S5x500000 .f32) (main_arg17 : FVec F S1000000 .f32) (main_arg20 : FVec F S500000 .f32) (main_arg23 : FVec F S1000000 .f32) (main_arg26 : FVec F S500000 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S5x500000 .f32 := Host.absf main_arg11
  let main_cst_16 : FVec F S_ .f32 := constant S_ .f32 0x7F800000#32
  let main_v45 : FVec F S5x500000 .f32 := broadcastInDim S5x500000 ![] bcast_S_S5x500000 main_cst_16
  let main_v46 : IVec S5x500000 1 := cmpf .olt main_v44 main_v45
  let main_c_17 : IVec S_ 1 := constantI S_ 1 1#1
  let main_v47 : IVec S_ 1 := (fun x v => Host.reduce IntOp.andi x v reducesTo_S5x500000_S_d0_1 h_S_) main_v46 main_c_17
  let main_v48 : IVec S_ 1 := andi main_v43 main_v47
  let main_v49 : FVec F S5x500000 .f32 := Host.absf main_arg14
  let main_cst_18 : FVec F S_ .f32 := constant S_ .f32 0x7F800000#32
  let main_v50 : FVec F S5x500000 .f32 := broadcastInDim S5x500000 ![] bcast_S_S5x500000 main_cst_18
  fn_part3 (F := F) main_arg17 main_arg20 main_arg23 main_arg26 main_v48 main_v49 main_v50

def fn_part1 {F : FTy → Type} [FloatOps F] (main_arg4 : FVec F S64x64 .f32) (main_arg5 : FVec F S64x64 .f32) (main_arg6 : FVec F S64x64 .f32) (main_arg7 : FVec F S64x64 .f32) (main_arg8 : FVec F S64x64 .f32) (main_arg11 : FVec F S5x500000 .f32) (main_arg14 : FVec F S5x500000 .f32) (main_arg17 : FVec F S1000000 .f32) (main_arg20 : FVec F S500000 .f32) (main_arg23 : FVec F S1000000 .f32) (main_arg26 : FVec F S500000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg11 main_arg14 main_arg17 main_arg20 main_arg23 main_arg26 main_v33

def fn {F : FTy → Type} [FloatOps F] (main_arg0 : FVec F S100000x64 .f32) (main_arg1 : FVec F S50000x64 .f32) (main_arg2 : FVec F S5000x64 .f32) (main_arg3 : FVec F S64x64 .f32) (main_arg4 : FVec F S64x64 .f32) (main_arg5 : FVec F S64x64 .f32) (main_arg6 : FVec F S64x64 .f32) (main_arg7 : FVec F S64x64 .f32) (main_arg8 : FVec F S64x64 .f32) (main_arg9 : IVec S5x500000 32) (main_arg10 : IVec S5x500000 32) (main_arg11 : FVec F S5x500000 .f32) (main_arg12 : IVec S5x500000 32) (main_arg13 : IVec S5x500000 32) (main_arg14 : FVec F S5x500000 .f32) (main_arg15 : IVec S1000000 32) (main_arg16 : IVec S1000000 32) (main_arg17 : FVec F S1000000 .f32) (main_arg18 : IVec S500000 32) (main_arg19 : IVec S500000 32) (main_arg20 : FVec F S500000 .f32) (main_arg21 : IVec S1000000 32) (main_arg22 : IVec S1000000 32) (main_arg23 : FVec F S1000000 .f32) (main_arg24 : IVec S500000 32) (main_arg25 : IVec S500000 32) (main_arg26 : FVec F S500000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S5000x64 .f32 := Host.absf main_arg2
  let main_cst_2 : FVec F S_ .f32 := constant S_ .f32 0x7F800000#32
  let main_v10 : FVec F S5000x64 .f32 := broadcastInDim S5000x64 ![] bcast_S_S5000x64 main_cst_2
  let main_v11 : IVec S5000x64 1 := cmpf .olt main_v9 main_v10
  let main_c_3 : IVec S_ 1 := constantI S_ 1 1#1
  let main_v12 : IVec S_ 1 := (fun x v => Host.reduce IntOp.andi x v reducesTo_S5000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg11 main_arg14 main_arg17 main_arg20 main_arg23 main_arg26 main_v13 main_v16
-- ==== Kernel.lean ====
abbrev S100000x64 : Shape := ⟨2, ![100000, 64]⟩
abbrev S50000x64 : Shape := ⟨2, ![50000, 64]⟩
abbrev S5000x64 : Shape := ⟨2, ![5000, 64]⟩
abbrev S64x64 : Shape := ⟨2, ![64, 64]⟩
abbrev S5x500000 : Shape := ⟨2, ![5, 500000]⟩
abbrev S1000000 : Shape := ⟨1, ![1000000]⟩
abbrev S500000 : Shape := ⟨1, ![500000]⟩
abbrev S64x128 : Shape := ⟨2, ![64, 128]⟩
abbrev S100000x128 : Shape := ⟨2, ![100000, 128]⟩
abbrev S5000x128 : Shape := ⟨2, ![5000, 128]⟩
abbrev S50000x128 : Shape := ⟨2, ![50000, 128]⟩
abbrev S2500000 : Shape := ⟨1, ![2500000]⟩
abbrev S2500000x1 : Shape := ⟨2, ![2500000, 1]⟩
abbrev S_ : Shape := ⟨0, ![]⟩
abbrev S2500000x64 : Shape := ⟨2, ![2500000, 64]⟩
abbrev S1000000x1 : Shape := ⟨2, ![1000000, 1]⟩
abbrev S1000000x64 : Shape := ⟨2, ![1000000, 64]⟩
abbrev S500000x1 : Shape := ⟨2, ![500000, 1]⟩
abbrev S500000x64 : Shape := ⟨2, ![500000, 64]⟩

abbrev nBuf : Space → Nat
  | .hbm => 144
  | .vmem => 28
  | .smem => 0
  | _ => 0

abbrev hbmTy0_0 (i : Nat) : BufTy := match i % 128 with
  | 0 => ⟨S100000x64, .f32⟩
  | 1 => ⟨S50000x64, .f32⟩
  | 2 => ⟨S5000x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S5x500000, .i32⟩
  | 10 => ⟨S5x500000, .i32⟩
  | 11 => ⟨S5x500000, .f32⟩
  | 12 => ⟨S5x500000, .i32⟩
  | 13 => ⟨S5x500000, .i32⟩
  | 14 => ⟨S5x500000, .f32⟩
  | 15 => ⟨S1000000, .i32⟩
  | 16 => ⟨S1000000, .i32⟩
  | 17 => ⟨S1000000, .f32⟩
  | 18 => ⟨S500000, .i32⟩
  | 19 => ⟨S500000, .i32⟩
  | 20 => ⟨S500000, .f32⟩
  | 21 => ⟨S1000000, .i32⟩
  | 22 => ⟨S1000000, .i32⟩
  | 23 => ⟨S1000000, .f32⟩
  | 24 => ⟨S500000, .i32⟩
  | 25 => ⟨S500000, .i32⟩
  | 26 => ⟨S500000, .f32⟩
  | 27 => ⟨S64x128, .f32⟩
  | 28 => ⟨S100000x128, .f32⟩
  | 29 => ⟨S100000x64, .f32⟩
  | 30 => ⟨S100000x64, .f32⟩
  | 31 => ⟨S64x128, .f32⟩
  | 32 => ⟨S50000x128, .f32⟩
  | 33 => ⟨S50000x64, .f32⟩
  | 34 => ⟨S50000x64, .f32⟩
  | 35 => ⟨S64x128, .f32⟩
  | 36 => ⟨S5000x128, .f32⟩
  | 37 => ⟨S5000x64, .f32⟩
  | 38 => ⟨S5000x64, .f32⟩
  | 39 => ⟨S2500000, .i32⟩
  | 40 => ⟨S2500000, .i32⟩
  | 41 => ⟨S2500000, .f32⟩
  | 42 => ⟨S2500000x1, .f32⟩
  | 43 => ⟨S_, .i32⟩
  | 44 => ⟨S2500000, .i32⟩
  | 45 => ⟨S2500000, .i1⟩
  | 46 => ⟨S_, .i32⟩
  | 47 => ⟨S2500000, .i32⟩
  | 48 => ⟨S2500000, .i32⟩
  | 49 => ⟨S2500000, .i32⟩
  | 50 => ⟨S2500000x1, .i32⟩
  | 51 => ⟨S2500000x64, .f32⟩
  | 52 => ⟨S2500000x64, .f32⟩
  | 53 => ⟨S2500000x64, .f32⟩
  | 54 => ⟨S_, .f32⟩
  | 55 => ⟨S100000x64, .f32⟩
  | 56 => ⟨S2500000x1, .i32⟩
  | 57 => ⟨S100000x64, .f32⟩
  | 58 => ⟨S2500000, .i32⟩
  | 59 => ⟨S2500000, .i32⟩
  | 60 => ⟨S2500000, .f32⟩
  | 61 => ⟨S2500000x1, .f32⟩
  | 62 => ⟨S_, .i32⟩
  | 63 => ⟨S2500000, .i32⟩
  | 64 => ⟨S2500000, .i1⟩
  | 65 => ⟨S_, .i32⟩
  | 66 => ⟨S2500000, .i32⟩
  | 67 => ⟨S2500000, .i32⟩
  | 68 => ⟨S2500000, .i32⟩
  | 69 => ⟨S2500000x1, .i32⟩
  | 70 => ⟨S2500000x64, .f32⟩
  | 71 => ⟨S2500000x64, .f32⟩
  | 72 => ⟨S2500000x64, .f32⟩
  | 73 => ⟨S_, .f32⟩
  | 74 => ⟨S50000x64, .f32⟩
  | 75 => ⟨S2500000x1, .i32⟩
  | 76 => ⟨S50000x64, .f32⟩
  | 77 => ⟨S1000000x1, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x64, .f32⟩
  | 87 => ⟨S1000000x64, .f32⟩
  | 88 => ⟨S1000000x64, .f32⟩
  | 89 => ⟨S_, .f32⟩
  | 90 => ⟨S100000x64, .f32⟩
  | 91 => ⟨S1000000x1, .i32⟩
  | 92 => ⟨S100000x64, .f32⟩
  | 93 => ⟨S500000x1, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x64, .f32⟩
  | 103 => ⟨S500000x64, .f32⟩
  | 104 => ⟨S500000x64, .f32⟩
  | 105 => ⟨S_, .f32⟩
  | 106 => ⟨S50000x64, .f32⟩
  | 107 => ⟨S500000x1, .i32⟩
  | 108 => ⟨S50000x64, .f32⟩
  | 109 => ⟨S1000000x1, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .f32⟩
  | 119 => ⟨S1000000x64, .f32⟩
  | 120 => ⟨S1000000x64, .f32⟩
  | 121 => ⟨S_, .f32⟩
  | 122 => ⟨S5000x64, .f32⟩
  | 123 => ⟨S1000000x1, .i32⟩
  | 124 => ⟨S5000x64, .f32⟩
  | 125 => ⟨S500000x1, .f32⟩
  | 126 => ⟨S_, .i32⟩
  | 127 => ⟨S500000, .i32⟩
  | _ => ⟨S100000x64, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x64, .f32⟩
  | 7 => ⟨S500000x64, .f32⟩
  | 8 => ⟨S500000x64, .f32⟩
  | 9 => ⟨S_, .f32⟩
  | 10 => ⟨S5000x64, .f32⟩
  | 11 => ⟨S500000x1, .i32⟩
  | 12 => ⟨S5000x64, .f32⟩
  | 13 => ⟨S100000x64, .f32⟩
  | 14 => ⟨S50000x64, .f32⟩
  | 15 => ⟨S5000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S64x128, .f32⟩
  | .local _ .vmem, ⟨12, _⟩ => ⟨S5000x128, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_1 : Ref sig .tc := ⟨.hbm, 62, rfl⟩
abbrev main_v32 : Ref sig .tc := ⟨.hbm, 63, rfl⟩
abbrev main_v33 : Ref sig .tc := ⟨.hbm, 64, rfl⟩
abbrev main_c_2 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_3 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_4 : Ref sig .tc := ⟨.hbm, 78, rfl⟩
abbrev main_v45 : Ref sig .tc := ⟨.hbm, 79, rfl⟩
abbrev main_v46 : Ref sig .tc := ⟨.hbm, 80, rfl⟩
abbrev main_c_5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_7 : Ref sig .tc := ⟨.hbm, 94, rfl⟩
abbrev main_v58 : Ref sig .tc := ⟨.hbm, 95, rfl⟩
abbrev main_v59 : Ref sig .tc := ⟨.hbm, 96, rfl⟩
abbrev main_c_8 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_9 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_10 : Ref sig .tc := ⟨.hbm, 110, rfl⟩
abbrev main_v71 : Ref sig .tc := ⟨.hbm, 111, rfl⟩
abbrev main_v72 : Ref sig .tc := ⟨.hbm, 112, rfl⟩
abbrev main_c_11 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_12 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_13 : Ref sig .tc := ⟨.hbm, 126, rfl⟩
abbrev main_v84 : Ref sig .tc := ⟨.hbm, 127, rfl⟩
abbrev main_v85 : Ref sig .tc := ⟨.hbm, 128, rfl⟩
abbrev main_c_14 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_15 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem2_1 : DmaSem sig := 18
abbrev cc4_sem0_0 : DmaSem sig := 19
abbrev cc4_sem0_1 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem2_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S5000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S5000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S5000x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S5000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S5000x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

class Facts₀ : Prop where
  concatenates_S64x64_S64x64_S64x128_d1 : Shape.Concatenates [S64x64, S64x64] S64x128 1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  slices_S100000x128_S100000x64_0_0 : S100000x128.Slices ![0, 0] S100000x64
  slices_S100000x128_S100000x64_0_64 : S100000x128.Slices ![0, 64] S100000x64
  slices_S50000x128_S50000x64_0_0 : S50000x128.Slices ![0, 0] S50000x64
  slices_S50000x128_S50000x64_0_64 : S50000x128.Slices ![0, 64] S50000x64
  slices_S5000x128_S5000x64_0_0 : S5000x128.Slices ![0, 0] S5000x64
  slices_S5000x128_S5000x64_0_64 : S5000x128.Slices ![0, 64] S5000x64
  shapeCasts_S5x500000_S2500000 : S5x500000.ShapeCasts S2500000
  bcast_S2500000_S2500000x1_0 : S2500000.BroadcastsInDim S2500000x1 (![0] : Fin 1 → Fin S2500000x1.rank)
  bcast_S_S2500000 : S_.BroadcastsInDim S2500000 (![] : Fin 0 → Fin S2500000.rank)
  bcast_S2500000x1_S2500000x64_0_1 : S2500000x1.BroadcastsInDim S2500000x64 (![0, 1] : Fin 2 → Fin S2500000x64.rank)
  bcast_S_S100000x64 : S_.BroadcastsInDim S100000x64 (![] : Fin 0 → Fin S100000x64.rank)
  bcast_S_S50000x64 : S_.BroadcastsInDim S50000x64 (![] : Fin 0 → Fin S50000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x64_0_1 : S500000x1.BroadcastsInDim S500000x64 (![0, 1] : Fin 2 → Fin S500000x64.rank)
  bcast_S_S5000x64 : S_.BroadcastsInDim S5000x64 (![] : Fin 0 → Fin S5000x64.rank)
  shapeCasts_S5000x64_S5000x64 : S5000x64.ShapeCasts S5000x64
  dot_S5000x64_S64x128_S5000x128_1_0_0_1_n_n_wf : DotDims.WF S5000x64 S64x128 S5000x128 [1] [0] [0] [1] [] []
  gather_S50000x64_S2500000x1_S2500000x64_1_0_n_n_0_1_164_wf : GatherDims.WF S50000x64 S2500000x1 S2500000x64 [1] [0] [] [0] [] 1 ![1, 64]
  scatter_S100000x64_S2500000x1_S2500000x64_1_0_0_1_wf : ScatterDims.WF S100000x64 S2500000x1 S2500000x64 [1] [0] [0] 1
  gather_S100000x64_S2500000x1_S2500000x64_1_0_n_n_0_1_164_wf : GatherDims.WF S100000x64 S2500000x1 S2500000x64 [1] [0] [] [0] [] 1 ![1, 64]
  scatter_S50000x64_S2500000x1_S2500000x64_1_0_0_1_wf : ScatterDims.WF S50000x64 S2500000x1 S2500000x64 [1] [0] [0] 1
  gather_S5000x64_S1000000x1_S1000000x64_1_0_n_n_0_1_164_wf : GatherDims.WF S5000x64 S1000000x1 S1000000x64 [1] [0] [] [0] [] 1 ![1, 64]
  scatter_S100000x64_S1000000x1_S1000000x64_1_0_0_1_wf : ScatterDims.WF S100000x64 S1000000x1 S1000000x64 [1] [0] [0] 1
  gather_S5000x64_S500000x1_S500000x64_1_0_n_n_0_1_164_wf : GatherDims.WF S5000x64 S500000x1 S500000x64 [1] [0] [] [0] [] 1 ![1, 64]
  scatter_S50000x64_S500000x1_S500000x64_1_0_0_1_wf : ScatterDims.WF S50000x64 S500000x1 S500000x64 [1] [0] [0] 1
  gather_S100000x64_S1000000x1_S1000000x64_1_0_n_n_0_1_164_wf : GatherDims.WF S100000x64 S1000000x1 S1000000x64 [1] [0] [] [0] [] 1 ![1, 64]
  scatter_S5000x64_S1000000x1_S1000000x64_1_0_0_1_wf : ScatterDims.WF S5000x64 S1000000x1 S1000000x64 [1] [0] [0] 1
  gather_S50000x64_S500000x1_S500000x64_1_0_n_n_0_1_164_wf : GatherDims.WF S50000x64 S500000x1 S500000x64 [1] [0] [] [0] [] 1 ![1, 64]
  scatter_S5000x64_S500000x1_S500000x64_1_0_0_1_wf : ScatterDims.WF S5000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S5000x64.size a
  hwx2_0 : ∀ i : grid2.Coords, EltTy.bits .f32 = 32 ∨ (Rect.block (s := S5000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S5000x128.size a
  hwx2_2 : ∀ i : grid2.Coords, EltTy.bits .f32 = 32 ∨ (Rect.block (s := S5000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S5000x64.size a
  hwx5_0 : ∀ i : grid5.Coords, EltTy.bits .f32 = 32 ∨ (Rect.block (s := S5000x64) S5000x64.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S5000x64.size a
  hwx5_1 : ∀ i : grid5.Coords, EltTy.bits .f32 = 32 ∨ (Rect.block (s := S5000x64) S5000x64.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S5000x64.size a
  hwx5_2 : ∀ i : grid5.Coords, EltTy.bits .f32 = 32 ∨ (Rect.block (s := S5000x64) S5000x64.size (cc5_transform_2 i) (hinb5_2 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x64_S2500000x1_S2500000x64_1_0_n_n_0_1_164 : GatherDims S50000x64 S2500000x1 S2500000x64 where
  offsetDims := [1]
  collapsedSliceDims := [0]
  operandBatchingDims := []
  startIndicesBatchingDims := []
  startIndexMap := [0]
  indexVectorDim := 1
  sliceSizes := ![1, 64]
  wf := gather_S50000x64_S2500000x1_S2500000x64_1_0_n_n_0_1_164_wf
def scatter_S100000x64_S2500000x1_S2500000x64_1_0_0_1 : ScatterDims S100000x64 S2500000x1 S2500000x64 where
  updateWindowDims := [1]
  insertedWindowDims := [0]
  scatterDimsToOperandDims := [0]
  indexVectorDim := 1
  wf := scatter_S100000x64_S2500000x1_S2500000x64_1_0_0_1_wf
def gather_S100000x64_S2500000x1_S2500000x64_1_0_n_n_0_1_164 : GatherDims S100000x64 S2500000x1 S2500000x64 where
  offsetDims := [1]
  collapsedSliceDims := [0]
  operandBatchingDims := []
  startIndicesBatchingDims := []
  startIndexMap := [0]
  indexVectorDim := 1
  sliceSizes := ![1, 64]
  wf := gather_S100000x64_S2500000x1_S2500000x64_1_0_n_n_0_1_164_wf
def scatter_S50000x64_S2500000x1_S2500000x64_1_0_0_1 : ScatterDims S50000x64 S2500000x1 S2500000x64 where
  updateWindowDims := [1]
  insertedWindowDims := [0]
  scatterDimsToOperandDims := [0]
  indexVectorDim := 1
  wf := scatter_S50000x64_S2500000x1_S2500000x64_1_0_0_1_wf
def gather_S5000x64_S1000000x1_S1000000x64_1_0_n_n_0_1_164 : GatherDims S5000x64 S1000000x1 S1000000x64 where
  offsetDims := [1]
  collapsedSliceDims := [0]
  operandBatchingDims := []
  startIndicesBatchingDims := []
  startIndexMap := [0]
  indexVectorDim := 1
  sliceSizes := ![1, 64]
  wf := gather_S5000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S5000x64_S500000x1_S500000x64_1_0_n_n_0_1_164 : GatherDims S5000x64 S500000x1 S500000x64 where
  offsetDims := [1]
  collapsedSliceDims := [0]
  operandBatchingDims := []
  startIndicesBatchingDims := []
  startIndexMap := [0]
  indexVectorDim := 1
  sliceSizes := ![1, 64]
  wf := gather_S5000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S5000x64_S1000000x1_S1000000x64_1_0_0_1 : ScatterDims S5000x64 S1000000x1 S1000000x64 where
  updateWindowDims := [1]
  insertedWindowDims := [0]
  scatterDimsToOperandDims := [0]
  indexVectorDim := 1
  wf := scatter_S5000x64_S1000000x1_S1000000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S5000x64_S500000x1_S500000x64_1_0_0_1 : ScatterDims S5000x64 S500000x1 S500000x64 where
  updateWindowDims := [1]
  insertedWindowDims := [0]
  scatterDimsToOperandDims := [0]
  indexVectorDim := 1
  wf := scatter_S5000x64_S500000x1_S500000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S5000x128.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v96) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v97) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S5000x64.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v95) S5000x64.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S5000x64.size cc5_transform_2 reads5_2 true false 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S5000x64 : Shape := ⟨2, ![5000, 64]⟩
abbrev S64x64 : Shape := ⟨2, ![64, 64]⟩
abbrev S5x500000 : Shape := ⟨2, ![5, 500000]⟩
abbrev S1000000 : Shape := ⟨1, ![1000000]⟩
abbrev S500000 : Shape := ⟨1, ![500000]⟩
abbrev S2500000 : Shape := ⟨1, ![2500000]⟩
abbrev S2500000x1 : Shape := ⟨2, ![2500000, 1]⟩
abbrev S_ : Shape := ⟨0, ![]⟩
abbrev S2500000x64 : Shape := ⟨2, ![2500000, 64]⟩
abbrev S1000000x1 : Shape := ⟨2, ![1000000, 1]⟩
abbrev S1000000x64 : Shape := ⟨2, ![1000000, 64]⟩
abbrev S500000x1 : Shape := ⟨2, ![500000, 1]⟩
abbrev S500000x64 : Shape := ⟨2, ![500000, 64]⟩

abbrev nBuf : Space → Nat
  | .hbm => 147
  | .vmem => 0
  | .smem => 0
  | _ => 0

abbrev hbmTy0_0 (i : Nat) : BufTy := match i % 128 with
  | 0 => ⟨S100000x64, .f32⟩
  | 1 => ⟨S50000x64, .f32⟩
  | 2 => ⟨S5000x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S5x500000, .i32⟩
  | 10 => ⟨S5x500000, .i32⟩
  | 11 => ⟨S5x500000, .f32⟩
  | 12 => ⟨S5x500000, .i32⟩
  | 13 => ⟨S5x500000, .i32⟩
  | 14 => ⟨S5x500000, .f32⟩
  | 15 => ⟨S1000000, .i32⟩
  | 16 => ⟨S1000000, .i32⟩
  | 17 => ⟨S1000000, .f32⟩
  | 18 => ⟨S500000, .i32⟩
  | 19 => ⟨S500000, .i32⟩
  | 20 => ⟨S500000, .f32⟩
  | 21 => ⟨S1000000, .i32⟩
  | 22 => ⟨S1000000, .i32⟩
  | 23 => ⟨S1000000, .f32⟩
  | 24 => ⟨S500000, .i32⟩
  | 25 => ⟨S500000, .i32⟩
  | 26 => ⟨S500000, .f32⟩
  | 27 => ⟨S100000x64, .f32⟩
  | 28 => ⟨S50000x64, .f32⟩
  | 29 => ⟨S5000x64, .f32⟩
  | 30 => ⟨S5000x64, .f32⟩
  | 31 => ⟨S100000x64, .f32⟩
  | 32 => ⟨S50000x64, .f32⟩
  | 33 => ⟨S2500000, .i32⟩
  | 34 => ⟨S2500000, .i32⟩
  | 35 => ⟨S2500000, .f32⟩
  | 36 => ⟨S2500000x1, .f32⟩
  | 37 => ⟨S_, .i32⟩
  | 38 => ⟨S2500000, .i32⟩
  | 39 => ⟨S2500000, .i1⟩
  | 40 => ⟨S_, .i32⟩
  | 41 => ⟨S2500000, .i32⟩
  | 42 => ⟨S2500000, .i32⟩
  | 43 => ⟨S2500000, .i32⟩
  | 44 => ⟨S2500000x1, .i32⟩
  | 45 => ⟨S2500000x64, .f32⟩
  | 46 => ⟨S2500000x64, .f32⟩
  | 47 => ⟨S2500000x64, .f32⟩
  | 48 => ⟨S_, .f32⟩
  | 49 => ⟨S100000x64, .f32⟩
  | 50 => ⟨S2500000x1, .i32⟩
  | 51 => ⟨S100000x64, .f32⟩
  | 52 => ⟨S2500000, .i32⟩
  | 53 => ⟨S2500000, .i32⟩
  | 54 => ⟨S2500000, .f32⟩
  | 55 => ⟨S2500000x1, .f32⟩
  | 56 => ⟨S_, .i32⟩
  | 57 => ⟨S2500000, .i32⟩
  | 58 => ⟨S2500000, .i1⟩
  | 59 => ⟨S_, .i32⟩
  | 60 => ⟨S2500000, .i32⟩
  | 61 => ⟨S2500000, .i32⟩
  | 62 => ⟨S2500000, .i32⟩
  | 63 => ⟨S2500000x1, .i32⟩
  | 64 => ⟨S2500000x64, .f32⟩
  | 65 => ⟨S2500000x64, .f32⟩
  | 66 => ⟨S2500000x64, .f32⟩
  | 67 => ⟨S_, .f32⟩
  | 68 => ⟨S50000x64, .f32⟩
  | 69 => ⟨S2500000x1, .i32⟩
  | 70 => ⟨S50000x64, .f32⟩
  | 71 => ⟨S1000000x1, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x64, .f32⟩
  | 81 => ⟨S1000000x64, .f32⟩
  | 82 => ⟨S1000000x64, .f32⟩
  | 83 => ⟨S_, .f32⟩
  | 84 => ⟨S100000x64, .f32⟩
  | 85 => ⟨S1000000x1, .i32⟩
  | 86 => ⟨S100000x64, .f32⟩
  | 87 => ⟨S100000x64, .f32⟩
  | 88 => ⟨S500000x1, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x64, .f32⟩
  | 98 => ⟨S500000x64, .f32⟩
  | 99 => ⟨S500000x64, .f32⟩
  | 100 => ⟨S_, .f32⟩
  | 101 => ⟨S50000x64, .f32⟩
  | 102 => ⟨S500000x1, .i32⟩
  | 103 => ⟨S50000x64, .f32⟩
  | 104 => ⟨S50000x64, .f32⟩
  | 105 => ⟨S1000000x1, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1000000x64, .f32⟩
  | 116 => ⟨S1000000x64, .f32⟩
  | 117 => ⟨S_, .f32⟩
  | 118 => ⟨S5000x64, .f32⟩
  | 119 => ⟨S1000000x1, .i32⟩
  | 120 => ⟨S5000x64, .f32⟩
  | 121 => ⟨S500000x1, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x64, .f32⟩

abbrev hbmTy0_1 (i : Nat) : BufTy := match i % 128 with
  | 0 => ⟨S500000, .i32⟩
  | 1 => ⟨S500000x1, .i32⟩
  | 2 => ⟨S500000x64, .f32⟩
  | 3 => ⟨S500000x64, .f32⟩
  | 4 => ⟨S500000x64, .f32⟩
  | 5 => ⟨S_, .f32⟩
  | 6 => ⟨S5000x64, .f32⟩
  | 7 => ⟨S500000x1, .i32⟩
  | 8 => ⟨S5000x64, .f32⟩
  | 9 => ⟨S5000x64, .f32⟩
  | 10 => ⟨S_, .f32⟩
  | 11 => ⟨S100000x64, .f32⟩
  | 12 => ⟨S100000x64, .f32⟩
  | 13 => ⟨S_, .f32⟩
  | 14 => ⟨S50000x64, .f32⟩
  | 15 => ⟨S50000x64, .f32⟩
  | 16 => ⟨S_, .f32⟩
  | 17 => ⟨S5000x64, .f32⟩
  | 18 => ⟨S5000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_1 : Ref sig .tc := ⟨.hbm, 56, rfl⟩
abbrev main_v26 : Ref sig .tc := ⟨.hbm, 57, rfl⟩
abbrev main_v27 : Ref sig .tc := ⟨.hbm, 58, rfl⟩
abbrev main_c_2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_4 : Ref sig .tc := ⟨.hbm, 72, rfl⟩
abbrev main_v39 : Ref sig .tc := ⟨.hbm, 73, rfl⟩
abbrev main_v40 : Ref sig .tc := ⟨.hbm, 74, rfl⟩
abbrev main_c_5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_7 : Ref sig .tc := ⟨.hbm, 89, rfl⟩
abbrev main_v53 : Ref sig .tc := ⟨.hbm, 90, rfl⟩
abbrev main_v54 : Ref sig .tc := ⟨.hbm, 91, rfl⟩
abbrev main_c_8 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_9 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_c_11 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_12 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_13 : Ref sig .tc := ⟨.hbm, 122, rfl⟩
abbrev main_v80 : Ref sig .tc := ⟨.hbm, 123, rfl⟩
abbrev main_v81 : Ref sig .tc := ⟨.hbm, 124, rfl⟩
abbrev main_c_14 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call0_cst : Ref sig .tc := ⟨.hbm, 138, rfl⟩
abbrev main_call0_v0 : Ref sig .tc := ⟨.hbm, 139, rfl⟩
abbrev main_v93 : Ref sig .tc := ⟨.hbm, 140, rfl⟩
abbrev main_call1_cst : Ref sig .tc := ⟨.hbm, 141, rfl⟩
abbrev main_call1_v0 : Ref sig .tc := ⟨.hbm, 142, rfl⟩
abbrev main_v94 : Ref sig .tc := ⟨.hbm, 143, rfl⟩
abbrev main_call2_cst : Ref sig .tc := ⟨.hbm, 144, rfl⟩
abbrev main_call2_v0 : Ref sig .tc := ⟨.hbm, 145, rfl⟩
abbrev main_v95 : Ref sig .tc := ⟨.hbm, 146, rfl⟩

abbrev nD : Nat := 1
abbrev τ : Topo := Topo.v7x

variable {F : FTy → Type} [FloatOps F]

class Facts₀ : Prop where
  shapeCasts_S5x500000_S2500000 : S5x500000.ShapeCasts S2500000
  bcast_S2500000_S2500000x1_0 : S2500000.BroadcastsInDim S2500000x1 (![0] : Fin 1 → Fin S2500000x1.rank)
  bcast_S_S2500000 : S_.BroadcastsInDim S2500000 (![] : Fin 0 → Fin S2500000.rank)
  bcast_S2500000x1_S2500000x64_0_1 : S2500000x1.BroadcastsInDim S2500000x64 (![0, 1] : Fin 2 → Fin S2500000x64.rank)
  bcast_S_S100000x64 : S_.BroadcastsInDim S100000x64 (![] : Fin 0 → Fin S100000x64.rank)
  bcast_S_S50000x64 : S_.BroadcastsInDim S50000x64 (![] : Fin 0 → Fin S50000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x64_0_1 : S500000x1.BroadcastsInDim S500000x64 (![0, 1] : Fin 2 → Fin S500000x64.rank)
  bcast_S_S5000x64 : S_.BroadcastsInDim S5000x64 (![] : Fin 0 → Fin S5000x64.rank)
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  dot_S5000x64_S64x64_S5000x64_1_0_0_1_n_n_wf : DotDims.WF S5000x64 S64x64 S5000x64 [1] [0] [0] [1] [] []
  gather_S50000x64_S2500000x1_S2500000x64_1_0_n_n_0_1_164_wf : GatherDims.WF S50000x64 S2500000x1 S2500000x64 [1] [0] [] [0] [] 1 ![1, 64]
  scatter_S100000x64_S2500000x1_S2500000x64_1_0_0_1_wf : ScatterDims.WF S100000x64 S2500000x1 S2500000x64 [1] [0] [0] 1
  gather_S100000x64_S2500000x1_S2500000x64_1_0_n_n_0_1_164_wf : GatherDims.WF S100000x64 S2500000x1 S2500000x64 [1] [0] [] [0] [] 1 ![1, 64]
  scatter_S50000x64_S2500000x1_S2500000x64_1_0_0_1_wf : ScatterDims.WF S50000x64 S2500000x1 S2500000x64 [1] [0] [0] 1
  gather_S5000x64_S1000000x1_S1000000x64_1_0_n_n_0_1_164_wf : GatherDims.WF S5000x64 S1000000x1 S1000000x64 [1] [0] [] [0] [] 1 ![1, 64]
  scatter_S100000x64_S1000000x1_S1000000x64_1_0_0_1_wf : ScatterDims.WF S100000x64 S1000000x1 S1000000x64 [1] [0] [0] 1
  gather_S5000x64_S500000x1_S500000x64_1_0_n_n_0_1_164_wf : GatherDims.WF S5000x64 S500000x1 S500000x64 [1] [0] [] [0] [] 1 ![1, 64]
  scatter_S50000x64_S500000x1_S500000x64_1_0_0_1_wf : ScatterDims.WF S50000x64 S500000x1 S500000x64 [1] [0] [0] 1
  gather_S100000x64_S1000000x1_S1000000x64_1_0_n_n_0_1_164_wf : GatherDims.WF S100000x64 S1000000x1 S1000000x64 [1] [0] [] [0] [] 1 ![1, 64]
  scatter_S5000x64_S1000000x1_S1000000x64_1_0_0_1_wf : ScatterDims.WF S5000x64 S1000000x1 S1000000x64 [1] [0] [0] 1
  gather_S50000x64_S500000x1_S500000x64_1_0_n_n_0_1_164_wf : GatherDims.WF S50000x64 S500000x1 S500000x64 [1] [0] [] [0] [] 1 ![1, 64]
  scatter_S5000x64_S500000x1_S500000x64_1_0_0_1_wf : ScatterDims.WF S5000x64 S500000x1 S500000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S2500000x1_S2500000x64_1_0_n_n_0_1_164 : GatherDims S50000x64 S2500000x1 S2500000x64 where
  offsetDims := [1]
  collapsedSliceDims := [0]
  operandBatchingDims := []
  startIndicesBatchingDims := []
  startIndexMap := [0]
  indexVectorDim := 1
  sliceSizes := ![1, 64]
  wf := gather_S50000x64_S2500000x1_S2500000x64_1_0_n_n_0_1_164_wf
def scatter_S100000x64_S2500000x1_S2500000x64_1_0_0_1 : ScatterDims S100000x64 S2500000x1 S2500000x64 where
  updateWindowDims := [1]
  insertedWindowDims := [0]
  scatterDimsToOperandDims := [0]
  indexVectorDim := 1
  wf := scatter_S100000x64_S2500000x1_S2500000x64_1_0_0_1_wf
def gather_S100000x64_S2500000x1_S2500000x64_1_0_n_n_0_1_164 : GatherDims S100000x64 S2500000x1 S2500000x64 where
  offsetDims := [1]
  collapsedSliceDims := [0]
  operandBatchingDims := []
  startIndicesBatchingDims := []
  startIndexMap := [0]
  indexVectorDim := 1
  sliceSizes := ![1, 64]
  wf := gather_S100000x64_S2500000x1_S2500000x64_1_0_n_n_0_1_164_wf
def scatter_S50000x64_S2500000x1_S2500000x64_1_0_0_1 : ScatterDims S50000x64 S2500000x1 S2500000x64 where
  updateWindowDims := [1]
  insertedWindowDims := [0]
  scatterDimsToOperandDims := [0]
  indexVectorDim := 1
  wf := scatter_S50000x64_S2500000x1_S2500000x64_1_0_0_1_wf
def gather_S5000x64_S1000000x1_S1000000x64_1_0_n_n_0_1_164 : GatherDims S5000x64 S1000000x1 S1000000x64 where
  offsetDims := [1]
  collapsedSliceDims := [0]
  operandBatchingDims := []
  startIndicesBatchingDims := []
  startIndexMap := [0]
  indexVectorDim := 1
  sliceSizes := ![1, 64]
  wf := gather_S5000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S5000x64_S500000x1_S500000x64_1_0_n_n_0_1_164 : GatherDims S5000x64 S500000x1 S500000x64 where
  offsetDims := [1]
  collapsedSliceDims := [0]
  operandBatchingDims := []
  startIndicesBatchingDims := []
  startIndexMap := [0]
  indexVectorDim := 1
  sliceSizes := ![1, 64]
  wf := gather_S5000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S5000x64_S1000000x1_S1000000x64_1_0_0_1 : ScatterDims S5000x64 S1000000x1 S1000000x64 where
  updateWindowDims := [1]
  insertedWindowDims := [0]
  scatterDimsToOperandDims := [0]
  indexVectorDim := 1
  wf := scatter_S5000x64_S1000000x1_S1000000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S5000x64_S500000x1_S500000x64_1_0_0_1 : ScatterDims S5000x64 S500000x1 S500000x64 where
  updateWindowDims := [1]
  insertedWindowDims := [0]
  scatterDimsToOperandDims := [0]
  indexVectorDim := 1
  wf := scatter_S5000x64_S500000x1_S500000x64_1_0_0_1_wf

class Facts : Prop extends Facts₀ where

variable [Facts]
-- ==== Proof.KernelRun.lean ====
/-
  The idealized kernel's whole run with its three result arrays NAMED: every weakly fair execution of @main terminates,
  nothing faulting, each result buffer ends at the contents the last region boundary assigns it, and the argument
  arrays end as launched. The contents at a boundary are a fold through @main: a stretch of host operations applies
  them in order; a region leaves its windows' arrays at what its write-backs make of them and every other buffer as it was.
-/
import proofs.«160633_j37941741093201_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's segments (host stretches and regions in program order), its last thread state read against
    the final memory: every unscoped buffer holds the last boundary's contents, so each result buffer does, and each
    argument buffer's contents there walk back to the launch memory. -/
theorem run_named : θ_run defs (onTc (τ := τ) (main (F := F))) ⟨m, fun _ => 0, ρ⟩ (fun r => ∀ c : Dev nD,
      r.2.mem ((c.tc : Thread nD τ).loc main_v96) = W10 m ρ c (Proc.devRef .tc main_v96)
      ∧ r.2.mem ((c.tc : Thread nD τ).loc main_v97) = W10 m ρ c (Proc.devRef .tc main_v97)
      ∧ r.2.mem ((c.tc : Thread nD τ).loc main_v98) = W10 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v96 (by decide)),
       h c _ (mem_uc main_v97 (by decide)),
       h c _ (mem_uc main_v98 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c),
       (h c _ (mem_uc main_arg25 (by decide))).trans (W10_main_arg25 m ρ c),
       (h c _ (mem_uc main_arg26 (by decide))).trans (W10_main_arg26 m ρ c)⟩)

end Cert.KernelIdeal.Named

end
-- ==== Proof.Fold.lean ====
/-
  The idealized kernel's buffer contents at the region boundaries, read back to the launch memory.
  A host stretch leaves a buffer it does not write as it was and a buffer it writes at its operation's value of the
  operands; a region leaves every buffer that is not one of its windows' arrays as it was and an output window's
  array at what its write-backs make of it. Walking these facts backwards: every edge list still holds its launch
  contents when the sparse stretch reads it; the three dense regions are entered with their row table at its launch
  contents and their 64×128 matrix at the two 64×64 weight matrices side by side; the six 64-wide tables the sparse
  stretch gathers from are the left and right column halves of the three dense regions' products; and each result
  buffer ends at what its add-and-clamp region leaves.
-/
import proofs.«160633_j37941741093201_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## Buffers nothing writes before the sparse stretch keep their launch contents -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by show StableHlo.after hostOps0 _ _ = _; after_results_simp
    _ = m ((c : Thread nD τ).loc main_arg1) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by show StableHlo.after hostOps0 _ _ = _; after_results_simp
    _ = m ((c : Thread nD τ).loc main_arg4) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by show StableHlo.after hostOps0 _ _ = _; after_results_simp
    _ = m ((c : Thread nD τ).loc main_arg8) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by show StableHlo.after hostOps1 _ _ = _; after_results_simp
    _ = W1 m ρ c (Proc.devRef .tc main_arg2) := W2_of_ne m ρ c main_arg2 (by decide)
    _ = W0 m ρ c (Proc.devRef .tc main_arg2) := by show StableHlo.after hostOps0 _ _ = _; after_results_simp
    _ = m ((c : Thread nD τ).loc main_arg2) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by show StableHlo.after hostOps1 _ _ = _; after_results_simp
    _ = W1 m ρ c (Proc.devRef .tc main_arg5) := W2_of_ne m ρ c main_arg5 (by decide)
    _ = W0 m ρ c (Proc.devRef .tc main_arg5) := by show StableHlo.after hostOps0 _ _ = _; after_results_simp
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by show StableHlo.after hostOps1 _ _ = _; after_results_simp
    _ = W1 m ρ c (Proc.devRef .tc main_arg6) := W2_of_ne m ρ c main_arg6 (by decide)
    _ = W0 m ρ c (Proc.devRef .tc main_arg6) := by show StableHlo.after hostOps0 _ _ = _; after_results_simp
    _ = m ((c : Thread nD τ).loc main_arg6) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by show StableHlo.after hostOps2 _ _ = _; after_results_simp
    _ = W3 m ρ c (Proc.devRef .tc main_arg9) := W4_of_ne m ρ c main_arg9 (by decide)
    _ = W2 m ρ c (Proc.devRef .tc main_arg9) := by show StableHlo.after hostOps1 _ _ = _; after_results_simp
    _ = W1 m ρ c (Proc.devRef .tc main_arg9) := W2_of_ne m ρ c main_arg9 (by decide)
    _ = W0 m ρ c (Proc.devRef .tc main_arg9) := by show StableHlo.after hostOps0 _ _ = _; after_results_simp
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by show StableHlo.after hostOps2 _ _ = _; after_results_simp
    _ = W3 m ρ c (Proc.devRef .tc main_arg10) := W4_of_ne m ρ c main_arg10 (by decide)
    _ = W2 m ρ c (Proc.devRef .tc main_arg10) := by show StableHlo.after hostOps1 _ _ = _; after_results_simp
    _ = W1 m ρ c (Proc.devRef .tc main_arg10) := W2_of_ne m ρ c main_arg10 (by decide)
    _ = W0 m ρ c (Proc.devRef .tc main_arg10) := by show StableHlo.after hostOps0 _ _ = _; after_results_simp
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by show StableHlo.after hostOps2 _ _ = _; after_results_simp
    _ = W3 m ρ c (Proc.devRef .tc main_arg11) := W4_of_ne m ρ c main_arg11 (by decide)
    _ = W2 m ρ c (Proc.devRef .tc main_arg11) := by show StableHlo.after hostOps1 _ _ = _; after_results_simp
    _ = W1 m ρ c (Proc.devRef .tc main_arg11) := W2_of_ne m ρ c main_arg11 (by decide)
    _ = W0 m ρ c (Proc.devRef .tc main_arg11) := by show StableHlo.after hostOps0 _ _ = _; after_results_simp
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by show StableHlo.after hostOps2 _ _ = _; after_results_simp
    _ = W3 m ρ c (Proc.devRef .tc main_arg12) := W4_of_ne m ρ c main_arg12 (by decide)
    _ = W2 m ρ c (Proc.devRef .tc main_arg12) := by show StableHlo.after hostOps1 _ _ = _; after_results_simp
    _ = W1 m ρ c (Proc.devRef .tc main_arg12) := W2_of_ne m ρ c main_arg12 (by decide)
    _ = W0 m ρ c (Proc.devRef .tc main_arg12) := by show StableHlo.after hostOps0 _ _ = _; after_results_simp
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by show StableHlo.after hostOps2 _ _ = _; after_results_simp
    _ = W3 m ρ c (Proc.devRef .tc main_arg13) := W4_of_ne m ρ c main_arg13 (by decide)
    _ = W2 m ρ c (Proc.devRef .tc main_arg13) := by show StableHlo.after hostOps1 _ _ = _; after_results_simp
    _ = W1 m ρ c (Proc.devRef .tc main_arg13) := W2_of_ne m ρ c main_arg13 (by decide)
    _ = W0 m ρ c (Proc.devRef .tc main_arg13) := by show StableHlo.after hostOps0 _ _ = _; after_results_simp
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by show StableHlo.after hostOps2 _ _ = _; after_results_simp
    _ = W3 m ρ c (Proc.devRef .tc main_arg14) := W4_of_ne m ρ c main_arg14 (by decide)
    _ = W2 m ρ c (Proc.devRef .tc main_arg14) := by show StableHlo.after hostOps1 _ _ = _; after_results_simp
    _ = W1 m ρ c (Proc.devRef .tc main_arg14) := W2_of_ne m ρ c main_arg14 (by decide)
    _ = W0 m ρ c (Proc.devRef .tc main_arg14) := by show StableHlo.after hostOps0 _ _ = _; after_results_simp
    _ = m ((c : Thread nD τ).loc main_arg14) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by show StableHlo.after hostOps2 _ _ = _; after_results_simp
    _ = W3 m ρ c (Proc.devRef .tc main_arg15) := W4_of_ne m ρ c main_arg15 (by decide)
    _ = W2 m ρ c (Proc.devRef .tc main_arg15) := by show StableHlo.after hostOps1 _ _ = _; after_results_simp
    _ = W1 m ρ c (Proc.devRef .tc main_arg15) := W2_of_ne m ρ c main_arg15 (by decide)
    _ = W0 m ρ c (Proc.devRef .tc main_arg15) := by show StableHlo.after hostOps0 _ _ = _; after_results_simp
    _ = m ((c : Thread nD τ).loc main_arg15) := rfl

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := by show StableHlo.after hostOps2 _ _ = _; after_results_simp
    _ = W3 m ρ c (Proc.devRef .tc main_arg16) := W4_of_ne m ρ c main_arg16 (by decide)
    _ = W2 m ρ c (Proc.devRef .tc main_arg16) := by show StableHlo.after hostOps1 _ _ = _; after_results_simp
    _ = W1 m ρ c (Proc.devRef .tc main_arg16) := W2_of_ne m ρ c main_arg16 (by decide)
    _ = W0 m ρ c (Proc.devRef .tc main_arg16) := by show StableHlo.after hostOps0 _ _ = _; after_results_simp
    _ = m ((c : Thread nD τ).loc main_arg16) := rfl

theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := by show StableHlo.after hostOps2 _ _ = _; after_results_simp
    _ = W3 m ρ c (Proc.devRef .tc main_arg17) := W4_of_ne m ρ c main_arg17 (by decide)
    _ = W2 m ρ c (Proc.devRef .tc main_arg17) := by show StableHlo.after hostOps1 _ _ = _; after_results_simp
    _ = W1 m ρ c (Proc.devRef .tc main_arg17) := W2_of_ne m ρ c main_arg17 (by decide)
    _ = W0 m ρ c (Proc.devRef .tc main_arg17) := by show StableHlo.after hostOps0 _ _ = _; after_results_simp
    _ = m ((c : Thread nD τ).loc main_arg17) := rfl

theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := by show StableHlo.after hostOps2 _ _ = _; after_results_simp
    _ = W3 m ρ c (Proc.devRef .tc main_arg18) := W4_of_ne m ρ c main_arg18 (by decide)
    _ = W2 m ρ c (Proc.devRef .tc main_arg18) := by show StableHlo.after hostOps1 _ _ = _; after_results_simp
    _ = W1 m ρ c (Proc.devRef .tc main_arg18) := W2_of_ne m ρ c main_arg18 (by decide)
    _ = W0 m ρ c (Proc.devRef .tc main_arg18) := by show StableHlo.after hostOps0 _ _ = _; after_results_simp
    _ = m ((c : Thread nD τ).loc main_arg18) := rfl

theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := by show StableHlo.after hostOps2 _ _ = _; after_results_simp
    _ = W3 m ρ c (Proc.devRef .tc main_arg19) := W4_of_ne m ρ c main_arg19 (by decide)
    _ = W2 m ρ c (Proc.devRef .tc main_arg19) := by show StableHlo.after hostOps1 _ _ = _; after_results_simp
    _ = W1 m ρ c (Proc.devRef .tc main_arg19) := W2_of_ne m ρ c main_arg19 (by decide)
    _ = W0 m ρ c (Proc.devRef .tc main_arg19) := by show StableHlo.after hostOps0 _ _ = _; after_results_simp
    _ = m ((c : Thread nD τ).loc main_arg19) := rfl

theorem W6_main_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := by show StableHlo.after hostOps2 _ _ = _; after_results_simp
    _ = W3 m ρ c (Proc.devRef .tc main_arg20) := W4_of_ne m ρ c main_arg20 (by decide)
    _ = W2 m ρ c (Proc.devRef .tc main_arg20) := by show StableHlo.after hostOps1 _ _ = _; after_results_simp
    _ = W1 m ρ c (Proc.devRef .tc main_arg20) := W2_of_ne m ρ c main_arg20 (by decide)
    _ = W0 m ρ c (Proc.devRef .tc main_arg20) := by show StableHlo.after hostOps0 _ _ = _; after_results_simp
    _ = m ((c : Thread nD τ).loc main_arg20) := rfl

theorem W6_main_arg21 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := by show StableHlo.after hostOps2 _ _ = _; after_results_simp
    _ = W3 m ρ c (Proc.devRef .tc main_arg21) := W4_of_ne m ρ c main_arg21 (by decide)
    _ = W2 m ρ c (Proc.devRef .tc main_arg21) := by show StableHlo.after hostOps1 _ _ = _; after_results_simp
    _ = W1 m ρ c (Proc.devRef .tc main_arg21) := W2_of_ne m ρ c main_arg21 (by decide)
    _ = W0 m ρ c (Proc.devRef .tc main_arg21) := by show StableHlo.after hostOps0 _ _ = _; after_results_simp
    _ = m ((c : Thread nD τ).loc main_arg21) := rfl

theorem W6_main_arg22 (c : Dev nD) : W6 m ρ c (Proc.devRef .tc main_arg22) = m ((c : Thread nD τ).loc main_arg22) :=
  calc W6 m ρ c (Proc.devRef .tc main_arg22)
    _ = W5 m ρ c (Proc.devRef .tc main_arg22) := W6_of_ne m ρ c main_arg22 (by decide)
    _ = W4 m ρ c (Proc.devRef .tc main_arg22) := by show StableHlo.after hostOps2 _ _ = _; after_results_simp
    _ = W3 m ρ c (Proc.devRef .tc main_arg22) := W4_of_ne m ρ c main_arg22 (by decide)
    _ = W2 m ρ c (Proc.devRef .tc main_arg22) := by show StableHlo.after hostOps1 _ _ = _; after_results_simp
    _ = W1 m ρ c (Proc.devRef .tc main_arg22) := W2_of_ne m ρ c main_arg22 (by decide)
    _ = W0 m ρ c (Proc.devRef .tc main_arg22) := by show StableHlo.after hostOps0 _ _ = _; after_results_simp
    _ = m ((c : Thread nD τ).loc main_arg22) := rfl

theorem W6_main_arg23 (c : Dev nD) : W6 m ρ c (Proc.devRef .tc main_arg23) = m ((c : Thread nD τ).loc main_arg23) :=
  calc W6 m ρ c (Proc.devRef .tc main_arg23)
    _ = W5 m ρ c (Proc.devRef .tc main_arg23) := W6_of_ne m ρ c main_arg23 (by decide)
    _ = W4 m ρ c (Proc.devRef .tc main_arg23) := by show StableHlo.after hostOps2 _ _ = _; after_results_simp
    _ = W3 m ρ c (Proc.devRef .tc main_arg23) := W4_of_ne m ρ c main_arg23 (by decide)
    _ = W2 m ρ c (Proc.devRef .tc main_arg23) := by show StableHlo.after hostOps1 _ _ = _; after_results_simp
    _ = W1 m ρ c (Proc.devRef .tc main_arg23) := W2_of_ne m ρ c main_arg23 (by decide)
    _ = W0 m ρ c (Proc.devRef .tc main_arg23) := by show StableHlo.after hostOps0 _ _ = _; after_results_simp
    _ = m ((c : Thread nD τ).loc main_arg23) := rfl

theorem W6_main_arg24 (c : Dev nD) : W6 m ρ c (Proc.devRef .tc main_arg24) = m ((c : Thread nD τ).loc main_arg24) :=
  calc W6 m ρ c (Proc.devRef .tc main_arg24)
    _ = W5 m ρ c (Proc.devRef .tc main_arg24) := W6_of_ne m ρ c main_arg24 (by decide)
    _ = W4 m ρ c (Proc.devRef .tc main_arg24) := by show StableHlo.after hostOps2 _ _ = _; after_results_simp
    _ = W3 m ρ c (Proc.devRef .tc main_arg24) := W4_of_ne m ρ c main_arg24 (by decide)
    _ = W2 m ρ c (Proc.devRef .tc main_arg24) := by show StableHlo.after hostOps1 _ _ = _; after_results_simp
    _ = W1 m ρ c (Proc.devRef .tc main_arg24) := W2_of_ne m ρ c main_arg24 (by decide)
    _ = W0 m ρ c (Proc.devRef .tc main_arg24) := by show StableHlo.after hostOps0 _ _ = _; after_results_simp
    _ = m ((c : Thread nD τ).loc main_arg24) := rfl

theorem W6_main_arg25 (c : Dev nD) : W6 m ρ c (Proc.devRef .tc main_arg25) = m ((c : Thread nD τ).loc main_arg25) :=
  calc W6 m ρ c (Proc.devRef .tc main_arg25)
    _ = W5 m ρ c (Proc.devRef .tc main_arg25) := W6_of_ne m ρ c main_arg25 (by decide)
    _ = W4 m ρ c (Proc.devRef .tc main_arg25) := by show StableHlo.after hostOps2 _ _ = _; after_results_simp
    _ = W3 m ρ c (Proc.devRef .tc main_arg25) := W4_of_ne m ρ c main_arg25 (by decide)
    _ = W2 m ρ c (Proc.devRef .tc main_arg25) := by show StableHlo.after hostOps1 _ _ = _; after_results_simp
    _ = W1 m ρ c (Proc.devRef .tc main_arg25) := W2_of_ne m ρ c main_arg25 (by decide)
    _ = W0 m ρ c (Proc.devRef .tc main_arg25) := by show StableHlo.after hostOps0 _ _ = _; after_results_simp
    _ = m ((c : Thread nD τ).loc main_arg25) := rfl

theorem W6_main_arg26 (c : Dev nD) : W6 m ρ c (Proc.devRef .tc main_arg26) = m ((c : Thread nD τ).loc main_arg26) :=
  calc W6 m ρ c (Proc.devRef .tc main_arg26)
    _ = W5 m ρ c (Proc.devRef .tc main_arg26) := W6_of_ne m ρ c main_arg26 (by decide)
    _ = W4 m ρ c (Proc.devRef .tc main_arg26) := by show StableHlo.after hostOps2 _ _ = _; after_results_simp
    _ = W3 m ρ c (Proc.devRef .tc main_arg26) := W4_of_ne m ρ c main_arg26 (by decide)
    _ = W2 m ρ c (Proc.devRef .tc main_arg26) := by show StableHlo.after hostOps1 _ _ = _; after_results_simp
    _ = W1 m ρ c (Proc.devRef .tc main_arg26) := W2_of_ne m ρ c main_arg26 (by decide)
    _ = W0 m ρ c (Proc.devRef .tc main_arg26) := by show StableHlo.after hostOps0 _ _ = _; after_results_simp
    _ = m ((c : Thread nD τ).loc main_arg26) := rfl

/-! ## What the three dense regions are entered with -/

/-- Region 0's row table is the first argument as launched. -/
theorem entry0_rows (c : Dev nD) : V1 m ρ c main_arg0 = m ((c : Thread nD τ).loc main_arg0) := by
  show StableHlo.after hostOps0 _ _ = _; after_results_simp <;> rfl

/-- Region 0's matrix is the two weight matrices side by side. -/
theorem entry0_weights (c : Dev nD) : V1 m ρ c main_v0 = concatenate S64x128 1 [⟨S64x64, m ((c : Thread nD τ).loc main_arg3)⟩, ⟨S64x64, m ((c : Thread nD τ).loc main_arg7)⟩] concatenates_S64x64_S64x64_S64x128_d1 := by
  show StableHlo.after hostOps0 _ _ = _; after_results_simp <;> rfl

/-- Region 1's row table is the second argument as launched. -/
theorem entry1_rows (c : Dev nD) : V3 m ρ c main_arg1 = m ((c : Thread nD τ).loc main_arg1) := by
  show StableHlo.after hostOps1 _ _ = _; after_results_simp; exact W2_main_arg1 m ρ c

/-- Region 1's matrix is its two weight matrices side by side. -/
theorem entry1_weights (c : Dev nD) : V3 m ρ c main_v4 = concatenate S64x128 1 [⟨S64x64, m ((c : Thread nD τ).loc main_arg4)⟩, ⟨S64x64, m ((c : Thread nD τ).loc main_arg8)⟩] concatenates_S64x64_S64x64_S64x128_d1 := by
  show StableHlo.after hostOps1 _ _ = _; after_results; rw [W2_main_arg4 m ρ c, W2_main_arg8 m ρ c]

/-- Region 2's row table is the third argument as launched. -/
theorem entry2_rows (c : Dev nD) : V5 m ρ c main_arg2 = m ((c : Thread nD τ).loc main_arg2) := by
  show StableHlo.after hostOps2 _ _ = _; after_results_simp; exact W4_main_arg2 m ρ c

/-- Region 2's matrix is its two weight matrices side by side. -/
theorem entry2_weights (c : Dev nD) : V5 m ρ c main_v8 = concatenate S64x128 1 [⟨S64x64, m ((c : Thread nD τ).loc main_arg5)⟩, ⟨S64x64, m ((c : Thread nD τ).loc main_arg6)⟩] concatenates_S64x64_S64x64_S64x128_d1 := by
  show StableHlo.after hostOps2 _ _ = _; after_results; rw [W4_main_arg5 m ρ c, W4_main_arg6 m ρ c]

/-! ## The six gathered tables are column halves of the dense regions' products -/

/-- The left 64 columns of region 0's product, when the sparse stretch reads them. -/
theorem W6_main_v2 (c : Dev nD) : W6 m ρ c (Proc.devRef .tc main_v2) = extractStridedSlice S100000x64 ![0, 0] ((dat0 (V1 m ρ) c).arrAt 2 cfg0.N) slices_S100000x128_S100000x64_0_0 :=
  calc W6 m ρ c (Proc.devRef .tc main_v2)
    _ = W5 m ρ c (Proc.devRef .tc main_v2) := W6_of_ne m ρ c main_v2 (by decide)
    _ = W4 m ρ c (Proc.devRef .tc main_v2) := by show StableHlo.after hostOps2 _ _ = _; after_results_simp
    _ = W3 m ρ c (Proc.devRef .tc main_v2) := W4_of_ne m ρ c main_v2 (by decide)
    _ = extractStridedSlice S100000x64 ![0, 0] (W2 m ρ c (Proc.devRef .tc main_v1)) slices_S100000x128_S100000x64_0_0 := by
          show StableHlo.after hostOps1 _ _ = _; after_results_simp <;> rfl
    _ = _ := by rw [show W2 m ρ c (Proc.devRef .tc main_v1) = _ from W2_arr m ρ c 2]

/-- The right 64 columns of region 0's product. -/
theorem W6_main_v3 (c : Dev nD) : W6 m ρ c (Proc.devRef .tc main_v3) = extractStridedSlice S100000x64 ![0, 64] ((dat0 (V1 m ρ) c).arrAt 2 cfg0.N) slices_S100000x128_S100000x64_0_64 :=
  calc W6 m ρ c (Proc.devRef .tc main_v3)
    _ = W5 m ρ c (Proc.devRef .tc main_v3) := W6_of_ne m ρ c main_v3 (by decide)
    _ = W4 m ρ c (Proc.devRef .tc main_v3) := by show StableHlo.after hostOps2 _ _ = _; after_results_simp
    _ = W3 m ρ c (Proc.devRef .tc main_v3) := W4_of_ne m ρ c main_v3 (by decide)
    _ = extractStridedSlice S100000x64 ![0, 64] (W2 m ρ c (Proc.devRef .tc main_v1)) slices_S100000x128_S100000x64_0_64 := by
          show StableHlo.after hostOps1 _ _ = _; after_results_simp <;> rfl
    _ = _ := by rw [show W2 m ρ c (Proc.devRef .tc main_v1) = _ from W2_arr m ρ c 2]

/-- The left 64 columns of region 1's product. -/
theorem W6_main_v6 (c : Dev nD) : W6 m ρ c (Proc.devRef .tc main_v6) = extractStridedSlice S50000x64 ![0, 0] ((dat1 (V3 m ρ) c).arrAt 2 cfg1.N) slices_S50000x128_S50000x64_0_0 :=
  calc W6 m ρ c (Proc.devRef .tc main_v6)
    _ = W5 m ρ c (Proc.devRef .tc main_v6) := W6_of_ne m ρ c main_v6 (by decide)
    _ = extractStridedSlice S50000x64 ![0, 0] (W4 m ρ c (Proc.devRef .tc main_v5)) slices_S50000x128_S50000x64_0_0 := by
          show StableHlo.after hostOps2 _ _ = _; after_results_simp <;> rfl
    _ = _ := by rw [show W4 m ρ c (Proc.devRef .tc main_v5) = _ from W4_arr m ρ c 2]

/-- The right 64 columns of region 1's product. -/
theorem W6_main_v7 (c : Dev nD) : W6 m ρ c (Proc.devRef .tc main_v7) = extractStridedSlice S50000x64 ![0, 64] ((dat1 (V3 m ρ) c).arrAt 2 cfg1.N) slices_S50000x128_S50000x64_0_64 :=
  calc W6 m ρ c (Proc.devRef .tc main_v7)
    _ = W5 m ρ c (Proc.devRef .tc main_v7) := W6_of_ne m ρ c main_v7 (by decide)
    _ = extractStridedSlice S50000x64 ![0, 64] (W4 m ρ c (Proc.devRef .tc main_v5)) slices_S50000x128_S50000x64_0_64 := by
          show StableHlo.after hostOps2 _ _ = _; after_results_simp <;> rfl
    _ = _ := by rw [show W4 m ρ c (Proc.devRef .tc main_v5) = _ from W4_arr m ρ c 2]

/-- Region 2's product, whose two halves the sparse stretch itself cuts out. -/
theorem W6_main_v9 (c : Dev nD) : W6 m ρ c (Proc.devRef .tc main_v9) = (dat2 (V5 m ρ) c).arrAt 2 cfg2.N := W6_arr m ρ c 2

/-! ## Each result buffer ends at what its add-and-clamp region leaves -/

theorem result_u (c : Dev nD) : W10 m ρ c (Proc.devRef .tc main_v96) = (dat3 (V7 m ρ) c).arrAt 2 cfg3.N :=
  (W10_of_ne m ρ c main_v96 (by decide)).trans ((W9_of_ne m ρ c main_v96 (by decide)).trans (W8_arr m ρ c 2))

theorem result_v (c : Dev nD) : W10 m ρ c (Proc.devRef .tc main_v97) = (dat4 (V8 m ρ) c).arrAt 2 cfg4.N :=
  (W10_of_ne m ρ c main_v97 (by decide)).trans (W9_arr m ρ c 2)

theorem result_f (c : Dev nD) : W10 m ρ c (Proc.devRef .tc main_v98) = (dat5 (V9 m ρ) c).arrAt 2 cfg5.N := W10_arr m ρ c 2

end Cert.KernelIdeal.Fold

end
-- ==== Proof.ReluBlocks.lean ====
import proofs.«160633_j37941741093201_1_alg».proof.Proof.Gen.KernelIdeal.Frame
import Idealize.ShloMosaic.Lib.Pipeline.Value

set_option maxRecDepth 16384

noncomputable section

namespace Cert.KernelIdeal.ReluBlocks

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The zero offset of a whole-block access. -/
theorem hz : (![0, 0] : Fin 2 → Nat) = fun _ => 0 := funext fun a => by fin_cases a <;> rfl

/-- The sum of two arrays clamped below at zero, index by index. -/
abbrev sumRelu {S : Shape} (a0 a1 : S.Idx → Elt F .f32) : S.Idx → Elt F .f32 :=
  fun i => FloatOps.maximumf (FloatOps.addf (a0 i) (a1 i)) (Scalar.ofBits .f32 0x00000000#32)

/-! ## Region 3: rows in blocks of 5000, 20 blocks -/

/-- The body's payload is the clamped sum of its two loaded blocks (the casts to the same shape are identities). -/
theorem pay3_eq (x0 x1 : Vec F S5000x64 .f32) : k3_pay1 x0 x1 = sumRelu x0 x1 := by
  unfold k3_pay1
  simp only [shapeCast_self]
  rfl

/-- The index maps over the grid: both inputs' block indices equal the output's on each axis; the output's row-block
    index is below 20 and its column-block index is 0. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 19
    ∧ win3_2.index t (1 : Fin 2) = 0 :=
  (by decide +kernel : ∀ t : Fin grid3.N, _)

/-- Every row block is some point's. -/
theorem idx_onto3 : ∀ (q0 : Fin 20), ∃ t : Fin cfg3.N, win3_2.index t = ![q0.val, 0] :=
  (by decide +kernel : ∀ (q0 : Fin 20), ∃ t : Fin grid3.N, win3_2.index t = ![q0.val, 0])

/-- What point `t` writes back is block `t` of the clamped sum of the two input arrays. -/
theorem flushed3_eq (c : Dev nD) (t : Fin cfg3.N) :
    (dat3 V c).flushed 2 t = ((cfg3.win 2).blk t).view.read (Elt F) (sumRelu (S := S100000x64) (V c main_v27) (V c main_v56)) := by
  show (cfg3.win 2).cut (grid3.coords t) ((dat3 V c).after 2 t) = _
  rw [after3_2]
  unfold out3_2
  rw [View.canon_unit_zero hz]
  simp only [View.ld_unit_zero (S := S5000x64) hz]
  rw [pay3_eq]
  obtain ⟨e0, e1, e2, e3, e4, e5⟩ := idx_facts3 t
  funext j
  show FloatOps.maximumf (FloatOps.addf (V c main_v27 (((cfg3.win 0).blk t).view.emb j)) (V c main_v56 (((cfg3.win 1).blk t).view.emb j))) _ = FloatOps.maximumf (FloatOps.addf (V c main_v27 (((cfg3.win 2).blk t).view.emb j)) (V c main_v56 (((cfg3.win 2).blk t).view.emb j))) _
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  rw [h0, h1]

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v96).slice (win3_2.rect t)).set ↔ _
  rw [View.set_slice_whole, Rect.mem_set_unit]
  exact Iff.rfl

/-- Row `r` lies in row block `r / 5000`: the blocks fill the array. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after region 3: the clamped sum of its two input arrays as the region finds them. -/
theorem sumRelu3 (c : Dev nD) : (dat3 V c).arrAt 2 cfg3.N
    = (fun i => FloatOps.maximumf (FloatOps.addf (V c main_v27 i) (V c main_v56 i)) (Scalar.ofBits .f32 0x00000000#32) : S100000x64.Idx → Elt F .f32) :=
  (dat3 V c).arrAt_eq_of_cover 2 (sumRelu (S := S100000x64) (V c main_v27) (V c main_v56)) (fun t _ => flushed3_eq V c t) (cover3)

/-! ## Region 4: rows in blocks of 5000, 10 blocks -/

/-- The body's payload is the clamped sum of its two loaded blocks (the casts to the same shape are identities). -/
theorem pay4_eq (x0 x1 : Vec F S5000x64 .f32) : k4_pay1 x0 x1 = sumRelu x0 x1 := by
  unfold k4_pay1
  simp only [shapeCast_self]
  rfl

/-- The index maps over the grid: both inputs' block indices equal the output's on each axis; the output's row-block
    index is below 10 and its column-block index is 0. -/
theorem idx_facts4 : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 9
    ∧ win4_2.index t (1 : Fin 2) = 0 :=
  (by decide +kernel : ∀ t : Fin grid4.N, _)

/-- Every row block is some point's. -/
theorem idx_onto4 : ∀ (q0 : Fin 10), ∃ t : Fin cfg4.N, win4_2.index t = ![q0.val, 0] :=
  (by decide +kernel : ∀ (q0 : Fin 10), ∃ t : Fin grid4.N, win4_2.index t = ![q0.val, 0])

/-- What point `t` writes back is block `t` of the clamped sum of the two input arrays. -/
theorem flushed4_eq (c : Dev nD) (t : Fin cfg4.N) :
    (dat4 V c).flushed 2 t = ((cfg4.win 2).blk t).view.read (Elt F) (sumRelu (S := S50000x64) (V c main_v43) (V c main_v69)) := by
  show (cfg4.win 2).cut (grid4.coords t) ((dat4 V c).after 2 t) = _
  rw [after4_2]
  unfold out4_2
  rw [View.canon_unit_zero hz]
  simp only [View.ld_unit_zero (S := S5000x64) hz]
  rw [pay4_eq]
  obtain ⟨e0, e1, e2, e3, e4, e5⟩ := idx_facts4 t
  funext j
  show FloatOps.maximumf (FloatOps.addf (V c main_v43 (((cfg4.win 0).blk t).view.emb j)) (V c main_v69 (((cfg4.win 1).blk t).view.emb j))) _ = FloatOps.maximumf (FloatOps.addf (V c main_v43 (((cfg4.win 2).blk t).view.emb j)) (V c main_v69 (((cfg4.win 2).blk t).view.emb j))) _
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 64 + 1 * (j 1).val = win4_2.index t (1 : Fin 2) * 64 + 1 * (j 1).val; omega
  rw [h0, h1]

/-- An index of the array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v97).slice (win4_2.rect t)).set ↔ _
  rw [View.set_slice_whole, Rect.mem_set_unit]
  exact Iff.rfl

/-- Row `r` lies in row block `r / 5000`: the blocks fill the array. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array after region 4: the clamped sum of its two input arrays as the region finds them. -/
theorem sumRelu4 (c : Dev nD) : (dat4 V c).arrAt 2 cfg4.N
    = (fun i => FloatOps.maximumf (FloatOps.addf (V c main_v43 i) (V c main_v69 i)) (Scalar.ofBits .f32 0x00000000#32) : S50000x64.Idx → Elt F .f32) :=
  (dat4 V c).arrAt_eq_of_cover 2 (sumRelu (S := S50000x64) (V c main_v43) (V c main_v69)) (fun t _ => flushed4_eq V c t) (cover4)

/-! ## Region 5: rows in blocks of 5000, 1 block -/

/-- The body's payload is the clamped sum of its two loaded blocks (the casts to the same shape are identities). -/
theorem pay5_eq (x0 x1 : Vec F S5000x64 .f32) : k5_pay1 x0 x1 = sumRelu x0 x1 := by
  unfold k5_pay1
  simp only [shapeCast_self]
  rfl

/-- The index maps over the grid: both inputs' block indices equal the output's on each axis; the output's row-block
    index is below 1 and its column-block index is 0. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 0
    ∧ win5_2.index t (1 : Fin 2) = 0 :=
  (by decide +kernel : ∀ t : Fin grid5.N, _)

/-- Every row block is some point's. -/
theorem idx_onto5 : ∀ (q0 : Fin 1), ∃ t : Fin cfg5.N, win5_2.index t = ![q0.val, 0] :=
  (by decide +kernel : ∀ (q0 : Fin 1), ∃ t : Fin grid5.N, win5_2.index t = ![q0.val, 0])

/-- What point `t` writes back is block `t` of the clamped sum of the two input arrays. -/
theorem flushed5_eq (c : Dev nD) (t : Fin cfg5.N) :
    (dat5 V c).flushed 2 t = ((cfg5.win 2).blk t).view.read (Elt F) (sumRelu (S := S5000x64) (V c main_v82) (V c main_v95)) := by
  show (cfg5.win 2).cut (grid5.coords t) ((dat5 V c).after 2 t) = _
  rw [after5_2]
  unfold out5_2
  rw [View.canon_unit_zero hz]
  simp only [View.ld_unit_zero (S := S5000x64) hz]
  rw [pay5_eq]
  obtain ⟨e0, e1, e2, e3, e4, e5⟩ := idx_facts5 t
  funext j
  show FloatOps.maximumf (FloatOps.addf (V c main_v82 (((cfg5.win 0).blk t).view.emb j)) (V c main_v95 (((cfg5.win 1).blk t).view.emb j))) _ = FloatOps.maximumf (FloatOps.addf (V c main_v82 (((cfg5.win 2).blk t).view.emb j)) (V c main_v95 (((cfg5.win 2).blk t).view.emb j))) _
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 64 + 1 * (j 1).val = win5_2.index t (1 : Fin 2) * 64 + 1 * (j 1).val; omega
  rw [h0, h1]

/-- An index of the array is in point `t`'s block iff each coordinate is in the block's range on its axis. -/
theorem mem_blk5 (t : Fin cfg5.N) (i : S5000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v98).slice (win5_2.rect t)).set ↔ _
  rw [View.set_slice_whole, Rect.mem_set_unit]
  exact Iff.rfl

/-- Row `r` lies in row block `r / 5000`: the blocks fill the array. -/
theorem cover5 (i : S5000x64.Idx) :
    ∃ t : Fin cfg5.N, (cfg5.win 2).flush t = true ∧ i ∈ ((cfg5.win 2).blk t).view.set := by
  have hi0 : (i 0).val < 5000 := (i 0).isLt
  have hi1 : (i 1).val < 64 := (i 1).isLt
  obtain ⟨t, ht⟩ := idx_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array after region 5: the clamped sum of its two input arrays as the region finds them. -/
theorem sumRelu5 (c : Dev nD) : (dat5 V c).arrAt 2 cfg5.N
    = (fun i => FloatOps.maximumf (FloatOps.addf (V c main_v82 i) (V c main_v95 i)) (Scalar.ofBits .f32 0x00000000#32) : S5000x64.Idx → Elt F .f32) :=
  (dat5 V c).arrAt_eq_of_cover 2 (sumRelu (S := S5000x64) (V c main_v82) (V c main_v95)) (fun t _ => flushed5_eq V c t) (cover5)

end Cert.KernelIdeal.ReluBlocks

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.DenseBlocks.lean ====
/-
  The three dense-layer regions: each multiplies a tall matrix x (rows in blocks of 5000) by a 64×128 matrix w, block by block,
  and writes the 5000×128 product block back. Here: the product block at an index is the sum over the contracted coordinate;
  every block of the output array is the matching block of the whole product x·w; the blocks fill the array; so the array ends
  holding x·w, read index by index.
-/
import proofs.«160633_j37941741093201_1_alg».proof.Proof.Gen.KernelIdeal.Frame
import proofs.«160633_j37941741093201_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.DenseBlocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a whole-block access. -/
theorem zero_off : (![0, 0] : Fin 2 → Nat) = fun _ => 0 := funext fun a => by fin_cases a <;> rfl

/-! ## One block: the product at an index -/

/-- The dimension record of the block product is the plain one: contract axis 1 of the left with axis 0 of the right. -/
theorem dims_eq : dot_S5000x64_S64x128_S5000x128_1_0_0_1_n_n
    = (⟨[1], [0], [0], [1], [], [], dot_S5000x64_S64x128_S5000x128_1_0_0_1_n_n_wf⟩ : DotDims S5000x64 S64x128 S5000x128) := rfl

/-- The block payload at (p, q): the sum over k of x0[p,k] · x1[k,q] (the narrowing casts are the identity on ideal values,
    the accumulator starts at zero). -/
theorem pay0_apply (x0 : Vec Ideal S5000x64 .f32) (x1 : Vec Ideal S64x128 .f32) (p : Fin 5000) (q : Fin 128) :
    Gen.k0_pay1 x0 x1 (ix2 p q) = ∑ k : Fin 64, (x0 : S5000x64.Idx → EReal) (ix2 p k) * (x1 : S64x128.Idx → EReal) (ix2 k q) := by
  unfold Gen.k0_pay1
  simp only [shapeCast_self]
  rw [dims_eq]
  exact Cert.LibPlainDot.matmul_zero_apply (m := 5000) (k := 64) (n := 128) dot_S5000x64_S64x128_S5000x128_1_0_0_1_n_n_wf none _ _ p q

/-- Region 1's block payload is the same term as region 0's. -/
theorem pay1_apply (x0 : Vec Ideal S5000x64 .f32) (x1 : Vec Ideal S64x128 .f32) (p : Fin 5000) (q : Fin 128) :
    Gen.k1_pay1 x0 x1 (ix2 p q) = ∑ k : Fin 64, (x0 : S5000x64.Idx → EReal) (ix2 p k) * (x1 : S64x128.Idx → EReal) (ix2 k q) :=
  pay0_apply x0 x1 p q

/-- Region 2's block payload is the same term as region 0's. -/
theorem pay2_apply (x0 : Vec Ideal S5000x64 .f32) (x1 : Vec Ideal S64x128 .f32) (p : Fin 5000) (q : Fin 128) :
    Gen.k2_pay1 x0 x1 (ix2 p q) = ∑ k : Fin 64, (x0 : S5000x64.Idx → EReal) (ix2 p k) * (x1 : S64x128.Idx → EReal) (ix2 k q) :=
  pay0_apply x0 x1 p q

/-! ## Region 0: 20 row blocks of a 100000×64 matrix -/

/-- The whole product x·w, index by index. -/
def prod0 (x : S100000x64.Idx → EReal) (w : S64x128.Idx → EReal) : S100000x128.Idx → EReal :=
  fun i => ∑ k : Fin 64, x (ix2 ⟨(i 0).val, idx2_lt0 i⟩ k) * w (ix2 k ⟨(i 1).val, idx2_lt1 i⟩)

/-- The index maps, decided over the grid: the x block moves with the output block along the rows, the w block never moves,
    the output block's row index stays in its range and its column index is 0. -/
theorem blkidx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem onto0 : ∀ (r : Fin 20), ∃ t : Fin cfg0.N, win0_2.index t = ![r.val, 0] :=
  (by decide +kernel : ∀ (r : Fin 20), ∃ t : Fin grid0.N, win0_2.index t = ![r.val, 0])

/-- The x block at a point, at (p, k), is x at row (block row index)·5000 + p, column k. -/
theorem xblk0_apply (c : Dev nD) (t : Fin cfg0.N) (p : Fin 5000) (k : Fin 64) (i : S100000x64.Idx)
    (h0 : (i 0).val = win0_2.index t (0 : Fin 2) * 5000 + p.val) (h1 : (i 1).val = k.val) :
    (Gen.iblk0 V c 0 t : S5000x64.Idx → EReal) (ix2 p k) = (V c main_arg0 : S100000x64.Idx → EReal) i := by
  obtain ⟨e0, e1, e2, e3, e4, e5⟩ := blkidx0 t
  unfold Gen.iblk0
  rw [View.read_apply]
  show V c main_arg0 _ = V c main_arg0 _
  congr 1
  funext a; apply Fin.ext
  match a with
  | ⟨0, _⟩ => show win0_0.index t (0 : Fin 2) * 5000 + 1 * p.val = (i 0).val; omega
  | ⟨1, _⟩ => show win0_0.index t (1 : Fin 2) * 64 + 1 * k.val = (i 1).val; omega

/-- The w block at a point is w. -/
theorem wblk0_apply (c : Dev nD) (t : Fin cfg0.N) (k : Fin 64) (q : Fin 128) (i : S64x128.Idx)
    (h0 : (i 0).val = k.val) (h1 : (i 1).val = q.val) :
    (Gen.iblk0 V c 1 t : S64x128.Idx → EReal) (ix2 k q) = (V c main_v0 : S64x128.Idx → EReal) i := by
  obtain ⟨e0, e1, e2, e3, e4, e5⟩ := blkidx0 t
  unfold Gen.iblk0
  rw [View.read_apply]
  show V c main_v0 _ = V c main_v0 _
  congr 1
  funext a; apply Fin.ext
  match a with
  | ⟨0, _⟩ => show win0_1.index t (0 : Fin 2) * 64 + 1 * k.val = (i 0).val; omega
  | ⟨1, _⟩ => show win0_1.index t (1 : Fin 2) * 128 + 1 * q.val = (i 1).val; omega

/-- What a point writes back is its block of the whole product. -/
theorem flushed0_eq (c : Dev nD) (t : Fin cfg0.N) :
    (Gen.dat0 V c).flushed 2 t = ((cfg0.win 2).blk t).view.read (Elt Ideal) (prod0 (V c main_arg0) (V c main_v0)) := by
  show (cfg0.win 2).cut (grid0.coords t) ((Gen.dat0 V c).after 2 t) = _
  rw [Gen.after0_2]
  unfold Gen.out0_2
  rw [View.canon_unit_zero zero_off]
  simp only [View.ld_unit_zero (S := S5000x64) zero_off, View.ld_unit_zero (S := S64x128) zero_off]
  obtain ⟨e0, e1, e2, e3, e4, e5⟩ := blkidx0 t
  funext j
  obtain ⟨p, q, rfl⟩ : ∃ (p : Fin 5000) (q : Fin 128), j = ix2 p q := ⟨j 0, j 1, eq_ix2 j⟩
  show Gen.k0_pay1 (Gen.iblk0 V c 0 t) (Gen.iblk0 V c 1 t) (ix2 p q)
    = prod0 (V c main_arg0) (V c main_v0) (((cfg0.win 2).blk t).view.emb (ix2 p q))
  rw [pay0_apply]
  unfold prod0
  refine Finset.sum_congr rfl fun k _ => ?_
  refine congrArg₂ (· * ·) (xblk0_apply V c t p k _ ?_ ?_) (wblk0_apply V c t k q _ ?_ ?_)
  · show win0_2.index t (0 : Fin 2) * 5000 + 1 * p.val = win0_2.index t (0 : Fin 2) * 5000 + p.val; omega
  · rfl
  · rfl
  · show win0_2.index t (1 : Fin 2) * 128 + 1 * q.val = q.val; omega

/-- An index is in a point's output block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v1).slice (win0_2.rect t)).set ↔ _
  rw [View.set_slice_whole, Rect.mem_set_unit]
  exact Iff.rfl

/-- The blocks fill the array: row r lies in block r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, Gen.flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the whole product. -/
theorem final0 (c : Dev nD) : (Gen.dat0 V c).arrAt 2 cfg0.N = prod0 (V c main_arg0) (V c main_v0) :=
  (Gen.dat0 V c).arrAt_eq_of_cover 2 (prod0 (V c main_arg0) (V c main_v0)) (fun t _ => flushed0_eq V c t) cover0

/-- The whole product at (a, b) is the sum over k of x[a,k] · w[k,b]. -/
theorem prod0_apply (x : S100000x64.Idx → EReal) (w : S64x128.Idx → EReal) (a : Fin 100000) (b : Fin 128) :
    prod0 x w (ix2 a b) = ∑ k : Fin 64, x (ix2 a k) * w (ix2 k b) := rfl

/-- The output array at (a, b) is the sum over k of x[a,k] · w[k,b]. -/
theorem product0 (c : Dev nD) (a : Fin 100000) (b : Fin 128) :
    ((Gen.dat0 (F := Ideal) V c).arrAt 2 cfg0.N : S100000x128.Idx → EReal) (ix2 a b)
      = ∑ k : Fin 64, HMul.hMul (α := EReal) (β := EReal) (γ := EReal)
          ((V c main_arg0 : S100000x64.Idx → EReal) (ix2 a k)) ((V c main_v0 : S64x128.Idx → EReal) (ix2 k b)) := by
  rw [final0]; rfl

/-! ## Region 1: 10 row blocks of a 50000×64 matrix -/

/-- The whole product x·w, index by index. -/
def prod1 (x : S50000x64.Idx → EReal) (w : S64x128.Idx → EReal) : S50000x128.Idx → EReal :=
  fun i => ∑ k : Fin 64, x (ix2 ⟨(i 0).val, idx2_lt0 i⟩ k) * w (ix2 k ⟨(i 1).val, idx2_lt1 i⟩)

/-- The index maps, decided over the grid: the x block moves with the output block along the rows, the w block never moves,
    the output block's row index stays in its range and its column index is 0. -/
theorem blkidx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem onto1 : ∀ (r : Fin 10), ∃ t : Fin cfg1.N, win1_2.index t = ![r.val, 0] :=
  (by decide +kernel : ∀ (r : Fin 10), ∃ t : Fin grid1.N, win1_2.index t = ![r.val, 0])

/-- The x block at a point, at (p, k), is x at row (block row index)·5000 + p, column k. -/
theorem xblk1_apply (c : Dev nD) (t : Fin cfg1.N) (p : Fin 5000) (k : Fin 64) (i : S50000x64.Idx)
    (h0 : (i 0).val = win1_2.index t (0 : Fin 2) * 5000 + p.val) (h1 : (i 1).val = k.val) :
    (Gen.iblk1 V c 0 t : S5000x64.Idx → EReal) (ix2 p k) = (V c main_arg1 : S50000x64.Idx → EReal) i := by
  obtain ⟨e0, e1, e2, e3, e4, e5⟩ := blkidx1 t
  unfold Gen.iblk1
  rw [View.read_apply]
  show V c main_arg1 _ = V c main_arg1 _
  congr 1
  funext a; apply Fin.ext
  match a with
  | ⟨0, _⟩ => show win1_0.index t (0 : Fin 2) * 5000 + 1 * p.val = (i 0).val; omega
  | ⟨1, _⟩ => show win1_0.index t (1 : Fin 2) * 64 + 1 * k.val = (i 1).val; omega

/-- The w block at a point is w. -/
theorem wblk1_apply (c : Dev nD) (t : Fin cfg1.N) (k : Fin 64) (q : Fin 128) (i : S64x128.Idx)
    (h0 : (i 0).val = k.val) (h1 : (i 1).val = q.val) :
    (Gen.iblk1 V c 1 t : S64x128.Idx → EReal) (ix2 k q) = (V c main_v4 : S64x128.Idx → EReal) i := by
  obtain ⟨e0, e1, e2, e3, e4, e5⟩ := blkidx1 t
  unfold Gen.iblk1
  rw [View.read_apply]
  show V c main_v4 _ = V c main_v4 _
  congr 1
  funext a; apply Fin.ext
  match a with
  | ⟨0, _⟩ => show win1_1.index t (0 : Fin 2) * 64 + 1 * k.val = (i 0).val; omega
  | ⟨1, _⟩ => show win1_1.index t (1 : Fin 2) * 128 + 1 * q.val = (i 1).val; omega

/-- What a point writes back is its block of the whole product. -/
theorem flushed1_eq (c : Dev nD) (t : Fin cfg1.N) :
    (Gen.dat1 V c).flushed 2 t = ((cfg1.win 2).blk t).view.read (Elt Ideal) (prod1 (V c main_arg1) (V c main_v4)) := by
  show (cfg1.win 2).cut (grid1.coords t) ((Gen.dat1 V c).after 2 t) = _
  rw [Gen.after1_2]
  unfold Gen.out1_2
  rw [View.canon_unit_zero zero_off]
  simp only [View.ld_unit_zero (S := S5000x64) zero_off, View.ld_unit_zero (S := S64x128) zero_off]
  obtain ⟨e0, e1, e2, e3, e4, e5⟩ := blkidx1 t
  funext j
  obtain ⟨p, q, rfl⟩ : ∃ (p : Fin 5000) (q : Fin 128), j = ix2 p q := ⟨j 0, j 1, eq_ix2 j⟩
  show Gen.k1_pay1 (Gen.iblk1 V c 0 t) (Gen.iblk1 V c 1 t) (ix2 p q)
    = prod1 (V c main_arg1) (V c main_v4) (((cfg1.win 2).blk t).view.emb (ix2 p q))
  rw [pay1_apply]
  unfold prod1
  refine Finset.sum_congr rfl fun k _ => ?_
  refine congrArg₂ (· * ·) (xblk1_apply V c t p k _ ?_ ?_) (wblk1_apply V c t k q _ ?_ ?_)
  · show win1_2.index t (0 : Fin 2) * 5000 + 1 * p.val = win1_2.index t (0 : Fin 2) * 5000 + p.val; omega
  · rfl
  · rfl
  · show win1_2.index t (1 : Fin 2) * 128 + 1 * q.val = q.val; omega

/-- An index is in a point's output block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v5).slice (win1_2.rect t)).set ↔ _
  rw [View.set_slice_whole, Rect.mem_set_unit]
  exact Iff.rfl

/-- The blocks fill the array: row r lies in block r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, Gen.flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region is the whole product. -/
theorem final1 (c : Dev nD) : (Gen.dat1 V c).arrAt 2 cfg1.N = prod1 (V c main_arg1) (V c main_v4) :=
  (Gen.dat1 V c).arrAt_eq_of_cover 2 (prod1 (V c main_arg1) (V c main_v4)) (fun t _ => flushed1_eq V c t) cover1

/-- The whole product at (a, b) is the sum over k of x[a,k] · w[k,b]. -/
theorem prod1_apply (x : S50000x64.Idx → EReal) (w : S64x128.Idx → EReal) (a : Fin 50000) (b : Fin 128) :
    prod1 x w (ix2 a b) = ∑ k : Fin 64, x (ix2 a k) * w (ix2 k b) := rfl

/-- The output array at (a, b) is the sum over k of x[a,k] · w[k,b]. -/
theorem product1 (c : Dev nD) (a : Fin 50000) (b : Fin 128) :
    ((Gen.dat1 (F := Ideal) V c).arrAt 2 cfg1.N : S50000x128.Idx → EReal) (ix2 a b)
      = ∑ k : Fin 64, HMul.hMul (α := EReal) (β := EReal) (γ := EReal)
          ((V c main_arg1 : S50000x64.Idx → EReal) (ix2 a k)) ((V c main_v4 : S64x128.Idx → EReal) (ix2 k b)) := by
  rw [final1]; rfl

/-! ## Region 2: 1 row block of a 5000×64 matrix -/

/-- The whole product x·w, index by index. -/
def prod2 (x : S5000x64.Idx → EReal) (w : S64x128.Idx → EReal) : S5000x128.Idx → EReal :=
  fun i => ∑ k : Fin 64, x (ix2 ⟨(i 0).val, idx2_lt0 i⟩ k) * w (ix2 k ⟨(i 1).val, idx2_lt1 i⟩)

/-- The index maps, decided over the grid: the x block moves with the output block along the rows, the w block never moves,
    the output block's row index stays in its range and its column index is 0. -/
theorem blkidx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 0 :=
  (by decide +kernel : ∀ t : Fin grid2.N, _)

/-- Every row block is some point's. -/
theorem onto2 : ∀ (r : Fin 1), ∃ t : Fin cfg2.N, win2_2.index t = ![r.val, 0] :=
  (by decide +kernel : ∀ (r : Fin 1), ∃ t : Fin grid2.N, win2_2.index t = ![r.val, 0])

/-- The x block at a point, at (p, k), is x at row (block row index)·5000 + p, column k. -/
theorem xblk2_apply (c : Dev nD) (t : Fin cfg2.N) (p : Fin 5000) (k : Fin 64) (i : S5000x64.Idx)
    (h0 : (i 0).val = win2_2.index t (0 : Fin 2) * 5000 + p.val) (h1 : (i 1).val = k.val) :
    (Gen.iblk2 V c 0 t : S5000x64.Idx → EReal) (ix2 p k) = (V c main_arg2 : S5000x64.Idx → EReal) i := by
  obtain ⟨e0, e1, e2, e3, e4, e5⟩ := blkidx2 t
  unfold Gen.iblk2
  rw [View.read_apply]
  show V c main_arg2 _ = V c main_arg2 _
  congr 1
  funext a; apply Fin.ext
  match a with
  | ⟨0, _⟩ => show win2_0.index t (0 : Fin 2) * 5000 + 1 * p.val = (i 0).val; omega
  | ⟨1, _⟩ => show win2_0.index t (1 : Fin 2) * 64 + 1 * k.val = (i 1).val; omega

/-- The w block at a point is w. -/
theorem wblk2_apply (c : Dev nD) (t : Fin cfg2.N) (k : Fin 64) (q : Fin 128) (i : S64x128.Idx)
    (h0 : (i 0).val = k.val) (h1 : (i 1).val = q.val) :
    (Gen.iblk2 V c 1 t : S64x128.Idx → EReal) (ix2 k q) = (V c main_v8 : S64x128.Idx → EReal) i := by
  obtain ⟨e0, e1, e2, e3, e4, e5⟩ := blkidx2 t
  unfold Gen.iblk2
  rw [View.read_apply]
  show V c main_v8 _ = V c main_v8 _
  congr 1
  funext a; apply Fin.ext
  match a with
  | ⟨0, _⟩ => show win2_1.index t (0 : Fin 2) * 64 + 1 * k.val = (i 0).val; omega
  | ⟨1, _⟩ => show win2_1.index t (1 : Fin 2) * 128 + 1 * q.val = (i 1).val; omega

/-- What a point writes back is its block of the whole product. -/
theorem flushed2_eq (c : Dev nD) (t : Fin cfg2.N) :
    (Gen.dat2 V c).flushed 2 t = ((cfg2.win 2).blk t).view.read (Elt Ideal) (prod2 (V c main_arg2) (V c main_v8)) := by
  show (cfg2.win 2).cut (grid2.coords t) ((Gen.dat2 V c).after 2 t) = _
  rw [Gen.after2_2]
  unfold Gen.out2_2
  rw [View.canon_unit_zero zero_off]
  simp only [View.ld_unit_zero (S := S5000x64) zero_off, View.ld_unit_zero (S := S64x128) zero_off]
  obtain ⟨e0, e1, e2, e3, e4, e5⟩ := blkidx2 t
  funext j
  obtain ⟨p, q, rfl⟩ : ∃ (p : Fin 5000) (q : Fin 128), j = ix2 p q := ⟨j 0, j 1, eq_ix2 j⟩
  show Gen.k2_pay1 (Gen.iblk2 V c 0 t) (Gen.iblk2 V c 1 t) (ix2 p q)
    = prod2 (V c main_arg2) (V c main_v8) (((cfg2.win 2).blk t).view.emb (ix2 p q))
  rw [pay2_apply]
  unfold prod2
  refine Finset.sum_congr rfl fun k _ => ?_
  refine congrArg₂ (· * ·) (xblk2_apply V c t p k _ ?_ ?_) (wblk2_apply V c t k q _ ?_ ?_)
  · show win2_2.index t (0 : Fin 2) * 5000 + 1 * p.val = win2_2.index t (0 : Fin 2) * 5000 + p.val; omega
  · rfl
  · rfl
  · show win2_2.index t (1 : Fin 2) * 128 + 1 * q.val = q.val; omega

/-- An index is in a point's output block iff each coordinate is in the block's range on its axis. -/
theorem mem_blk2 (t : Fin cfg2.N) (i : S5000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v9).slice (win2_2.rect t)).set ↔ _
  rw [View.set_slice_whole, Rect.mem_set_unit]
  exact Iff.rfl

/-- The blocks fill the array: row r lies in block r / 5000. -/
theorem cover2 (i : S5000x128.Idx) :
    ∃ t : Fin cfg2.N, (cfg2.win 2).flush t = true ∧ i ∈ ((cfg2.win 2).blk t).view.set := by
  have hi0 : (i 0).val < 5000 := (i 0).isLt
  have hi1 : (i 1).val < 128 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, Gen.flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is the whole product. -/
theorem final2 (c : Dev nD) : (Gen.dat2 V c).arrAt 2 cfg2.N = prod2 (V c main_arg2) (V c main_v8) :=
  (Gen.dat2 V c).arrAt_eq_of_cover 2 (prod2 (V c main_arg2) (V c main_v8)) (fun t _ => flushed2_eq V c t) cover2

/-- The whole product at (a, b) is the sum over k of x[a,k] · w[k,b]. -/
theorem prod2_apply (x : S5000x64.Idx → EReal) (w : S64x128.Idx → EReal) (a : Fin 5000) (b : Fin 128) :
    prod2 x w (ix2 a b) = ∑ k : Fin 64, x (ix2 a k) * w (ix2 k b) := rfl

/-- The output array at (a, b) is the sum over k of x[a,k] · w[k,b]. -/
theorem product2 (c : Dev nD) (a : Fin 5000) (b : Fin 128) :
    ((Gen.dat2 (F := Ideal) V c).arrAt 2 cfg2.N : S5000x128.Idx → EReal) (ix2 a b)
      = ∑ k : Fin 64, HMul.hMul (α := EReal) (β := EReal) (γ := EReal)
          ((V c main_arg2 : S5000x64.Idx → EReal) (ix2 a k)) ((V c main_v8 : S64x128.Idx → EReal) (ix2 k b)) := by
  rw [final2]; rfl

end Cert.KernelIdeal.DenseBlocks

end
-- ==== Proof.DenseHalves.lean ====
/-
  The two column halves of a product with two matrices side by side. For an R×64 table x and two 64×64 matrices w₁, w₂,
  let P be R×128 with P[a,b] = ∑ₖ x[a,k] · [w₁ | w₂][k,b]. Columns 0…63 of [w₁ | w₂] are w₁ and columns 64…127 are w₂,
  so columns 0…63 of P are the plain product x·w₁ and columns 64…127 are x·w₂, term by term: no law of the extended
  reals is used beyond reading each factor where it sits.
-/
import proofs.«160633_j37941741093201_1_alg».proof.Proof.LibPlainDot
import Idealize.ShloMosaic.Lib.Pipeline.Value
import Idealize.ShloMosaic.Lib.ValueIdx
import Idealize.ShloMosaic.PureOps.Ideal.Laws

noncomputable section

namespace Cert.DenseHalves

open Idealize.ShloMosaic Idealize.ShloMosaic.ValueIdx Idealize.ShloMosaic.Pipeline

variable {R : ℕ}

/-- Column b < 64 of the side-by-side matrix is column b of the left matrix. -/
theorem cat_left (w₁ w₂ : (⟨2, ![64, 64]⟩ : Shape).Idx → EReal)
    (hc : Shape.Concatenates [(⟨2, ![64, 64]⟩ : Shape), ⟨2, ![64, 64]⟩] ⟨2, ![64, 128]⟩ 1) (k : Fin 64) (b : Fin 64) (b' : Fin 128)
    (hb : b'.val = b.val) :
    concatenate (⟨2, ![64, 128]⟩ : Shape) 1 [⟨⟨2, ![64, 64]⟩, w₁⟩, ⟨⟨2, ![64, 64]⟩, w₂⟩] hc (ix2 k b') = w₁ (ix2 k b) := by
  refine concatenate_pair_apply_left 1 w₁ w₂ hc (ix2 k b') rfl (ix2 k b) ?_
  intro ax
  match ax with
  | ⟨0, _⟩ => rfl
  | ⟨1, _⟩ => exact hb.symm

/-- Column 64 + b of the side-by-side matrix is column b of the right matrix. -/
theorem cat_right (w₁ w₂ : (⟨2, ![64, 64]⟩ : Shape).Idx → EReal)
    (hc : Shape.Concatenates [(⟨2, ![64, 64]⟩ : Shape), ⟨2, ![64, 64]⟩] ⟨2, ![64, 128]⟩ 1) (k : Fin 64) (b : Fin 64) (b' : Fin 128)
    (hb : b'.val = 64 + b.val) :
    concatenate (⟨2, ![64, 128]⟩ : Shape) 1 [⟨⟨2, ![64, 64]⟩, w₁⟩, ⟨⟨2, ![64, 64]⟩, w₂⟩] hc (ix2 k b') = w₂ (ix2 k b) := by
  refine concatenate_pair_apply_right 1 w₁ w₂ hc (ix2 k b') rfl rfl (ix2 k b) ?_ ?_
  · intro ax hax
    match ax with
    | ⟨0, _⟩ => rfl
    | ⟨1, _⟩ => exact absurd rfl hax
  · show b.val + 64 = b'.val
    omega

/-- Columns 0…63 of P are the plain product with the left matrix. -/
theorem left_half (x : (⟨2, ![R, 64]⟩ : Shape).Idx → EReal) (w₁ w₂ : (⟨2, ![64, 64]⟩ : Shape).Idx → EReal)
    (hc : Shape.Concatenates [(⟨2, ![64, 64]⟩ : Shape), ⟨2, ![64, 64]⟩] ⟨2, ![64, 128]⟩ 1)
    (P : (⟨2, ![R, 128]⟩ : Shape).Idx → EReal)
    (hP : ∀ (a : Fin R) (b : Fin 128), P (ix2 a b) = ∑ k : Fin 64, x (ix2 a k) *
      concatenate (⟨2, ![64, 128]⟩ : Shape) 1 [⟨⟨2, ![64, 64]⟩, w₁⟩, ⟨⟨2, ![64, 64]⟩, w₂⟩] hc (ix2 k b))
    (hs : (⟨2, ![R, 128]⟩ : Shape).Slices ![0, 0] ⟨2, ![R, 64]⟩)
    (wf : DotDims.WF ⟨2, ![R, 64]⟩ ⟨2, ![64, 64]⟩ ⟨2, ![R, 64]⟩ [1] [0] [0] [1] [] []) (prec : Option ContractPrecision) :
    extractStridedSlice (⟨2, ![R, 64]⟩ : Shape) ![0, 0] P hs
      = Host.dotGeneral (F := Ideal) (φ₁ := .f32) (φ₂ := .f32) (⟨[1], [0], [0], [1], [], [], wf⟩ : DotDims _ _ _) prec x w₁ := by
  funext j
  obtain ⟨a, b, rfl⟩ : ∃ (a : Fin R) (b : Fin 64), j = ix2 a b := ⟨j 0, j 1, eq_ix2 j⟩
  have hb128 : b.val < 128 := by have := b.isLt; omega
  rw [extractStridedSlice_apply ![0, 0] P hs (ix2 a b) (ix2 a ⟨b.val, hb128⟩) (by
    intro ax
    match ax with
    | ⟨0, _⟩ => show a.val = 0 + a.val; omega
    | ⟨1, _⟩ => show b.val = 0 + b.val; omega)]
  rw [hP, Cert.LibPlainDot.dotGeneral_apply]
  refine Finset.sum_congr rfl fun k _ => ?_
  rw [cat_left w₁ w₂ hc k b ⟨b.val, hb128⟩ rfl]

/-- Columns 64…127 of P are the plain product with the right matrix. -/
theorem right_half (x : (⟨2, ![R, 64]⟩ : Shape).Idx → EReal) (w₁ w₂ : (⟨2, ![64, 64]⟩ : Shape).Idx → EReal)
    (hc : Shape.Concatenates [(⟨2, ![64, 64]⟩ : Shape), ⟨2, ![64, 64]⟩] ⟨2, ![64, 128]⟩ 1)
    (P : (⟨2, ![R, 128]⟩ : Shape).Idx → EReal)
    (hP : ∀ (a : Fin R) (b : Fin 128), P (ix2 a b) = ∑ k : Fin 64, x (ix2 a k) *
      concatenate (⟨2, ![64, 128]⟩ : Shape) 1 [⟨⟨2, ![64, 64]⟩, w₁⟩, ⟨⟨2, ![64, 64]⟩, w₂⟩] hc (ix2 k b))
    (hs : (⟨2, ![R, 128]⟩ : Shape).Slices ![0, 64] ⟨2, ![R, 64]⟩)
    (wf : DotDims.WF ⟨2, ![R, 64]⟩ ⟨2, ![64, 64]⟩ ⟨2, ![R, 64]⟩ [1] [0] [0] [1] [] []) (prec : Option ContractPrecision) :
    extractStridedSlice (⟨2, ![R, 64]⟩ : Shape) ![0, 64] P hs
      = Host.dotGeneral (F := Ideal) (φ₁ := .f32) (φ₂ := .f32) (⟨[1], [0], [0], [1], [], [], wf⟩ : DotDims _ _ _) prec x w₂ := by
  funext j
  obtain ⟨a, b, rfl⟩ : ∃ (a : Fin R) (b : Fin 64), j = ix2 a b := ⟨j 0, j 1, eq_ix2 j⟩
  have hb128 : 64 + b.val < 128 := by have := b.isLt; omega
  rw [extractStridedSlice_apply ![0, 64] P hs (ix2 a b) (ix2 a ⟨64 + b.val, hb128⟩) (by
    intro ax
    match ax with
    | ⟨0, _⟩ => show a.val = 0 + a.val; omega
    | ⟨1, _⟩ => show 64 + b.val = 64 + b.val; rfl)]
  rw [hP, Cert.LibPlainDot.dotGeneral_apply]
  refine Finset.sum_congr rfl fun k _ => ?_
  rw [cat_right w₁ w₂ hc k b ⟨64 + b.val, hb128⟩ rfl]

end Cert.DenseHalves

end
-- ==== Proof.Aggregate.lean ====
/-
  The sparse half of the message passing as three functions of its inputs: for each of the three node sets, two dense
  tables of 64-wide rows are gathered along an edge list (row number = the edge's source, a negative number counted from
  the end), each gathered row is scaled by its edge's value, the scaled rows are added into the rows their edges point
  to, and the two sums are added and clamped below at zero. Both programs compute exactly these functions of their dense
  tables; the functions are never opened.
-/
import proofs.«160633_j37941741093201_1_alg».proof.Proof.Gen.ReferenceIdeal

noncomputable section

namespace Cert.Bridge

open Cert.ReferenceIdeal Cert.ReferenceIdeal.Facts₀ Cert.ReferenceIdeal.Facts Idealize.ShloMosaic

variable {F : FTy → Type} [FloatOps F]

/-- Messages into the 100000 rows: the first dense table's rows gathered along 2500000 rated edges and the second's along 1000000 feature edges, each row scaled by its edge's value and added into its destination row; the two sums added and clamped below at zero. -/
def aggU (D1 : (⟨S50000x64, .f32⟩ : BufTy).Contents (Elt F)) (D2 : (⟨S5000x64, .f32⟩ : BufTy).Contents (Elt F)) (a9 : (⟨S5x500000, .i32⟩ : BufTy).Contents (Elt F)) (a10 : (⟨S5x500000, .i32⟩ : BufTy).Contents (Elt F)) (a11 : (⟨S5x500000, .f32⟩ : BufTy).Contents (Elt F)) (a15 : (⟨S1000000, .i32⟩ : BufTy).Contents (Elt F)) (a16 : (⟨S1000000, .i32⟩ : BufTy).Contents (Elt F)) (a17 : (⟨S1000000, .f32⟩ : BufTy).Contents (Elt F)) :
    (⟨S100000x64, .f32⟩ : BufTy).Contents (Elt F) :=
  maximumf (addf (Host.scatterAdd scatter_S100000x64_S2500000x1_S2500000x64_1_0_0_1 (broadcastInDim S100000x64 ![] bcast_S_S100000x64 (constant S_ .f32 0x00000000#32)) (broadcastInDim S2500000x1 ![0] bcast_S2500000_S2500000x1_0 (shapeCast S2500000 a9 shapeCasts_S5x500000_S2500000)) (mulf (broadcastInDim S2500000x64 ![0, 1] bcast_S2500000x1_S2500000x64_0_1 (broadcastInDim S2500000x1 ![0] bcast_S2500000_S2500000x1_0 (shapeCast S2500000 a11 shapeCasts_S5x500000_S2500000))) (Host.gather gather_S50000x64_S2500000x1_S2500000x64_1_0_n_n_0_1_164 D1 (broadcastInDim S2500000x1 ![0] bcast_S2500000_S2500000x1_0 (select (cmpi .slt (shapeCast S2500000 a10 shapeCasts_S5x500000_S2500000) (broadcastInDim S2500000 ![] bcast_S_S2500000 (constantI S_ 32 0#32))) (addi (shapeCast S2500000 a10 shapeCasts_S5x500000_S2500000) (broadcastInDim S2500000 ![] bcast_S_S2500000 (constantI S_ 32 50000#32))) (shapeCast S2500000 a10 shapeCasts_S5x500000_S2500000)))))) (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 a15) (mulf (broadcastInDim S1000000x64 ![0, 1] bcast_S1000000x1_S1000000x64_0_1 (broadcastInDim S1000000x1 ![0] bcast_S1000000_S1000000x1_0 a17)) (Host.gather gather_S5000x64_S1000000x1_S1000000x64_1_0_n_n_0_1_164 D2 (broadcastInDim S1000000x1 ![0] bcast_S1000000_S1000000x1_0 (select (cmpi .slt a16 (broadcastInDim S1000000 ![] bcast_S_S1000000 (constantI S_ 32 0#32))) (addi a16 (broadcastInDim S1000000 ![] bcast_S_S1000000 (constantI S_ 32 5000#32))) a16)))))) (broadcastInDim S100000x64 ![] bcast_S_S100000x64 (constant S_ .f32 0x00000000#32))

/-- Messages into the 50000 rows: the same two gather-scale-scatter sums over the reversed rated edges and the 500000 feature edges, added and clamped below at zero. -/
def aggV (D1 : (⟨S100000x64, .f32⟩ : BufTy).Contents (Elt F)) (D2 : (⟨S5000x64, .f32⟩ : BufTy).Contents (Elt F)) (a12 : (⟨S5x500000, .i32⟩ : BufTy).Contents (Elt F)) (a13 : (⟨S5x500000, .i32⟩ : BufTy).Contents (Elt F)) (a14 : (⟨S5x500000, .f32⟩ : BufTy).Contents (Elt F)) (a18 : (⟨S500000, .i32⟩ : BufTy).Contents (Elt F)) (a19 : (⟨S500000, .i32⟩ : BufTy).Contents (Elt F)) (a20 : (⟨S500000, .f32⟩ : BufTy).Contents (Elt F)) :
    (⟨S50000x64, .f32⟩ : BufTy).Contents (Elt F) :=
  maximumf (addf (Host.scatterAdd scatter_S50000x64_S2500000x1_S2500000x64_1_0_0_1 (broadcastInDim S50000x64 ![] bcast_S_S50000x64 (constant S_ .f32 0x00000000#32)) (broadcastInDim S2500000x1 ![0] bcast_S2500000_S2500000x1_0 (shapeCast S2500000 a12 shapeCasts_S5x500000_S2500000)) (mulf (broadcastInDim S2500000x64 ![0, 1] bcast_S2500000x1_S2500000x64_0_1 (broadcastInDim S2500000x1 ![0] bcast_S2500000_S2500000x1_0 (shapeCast S2500000 a14 shapeCasts_S5x500000_S2500000))) (Host.gather gather_S100000x64_S2500000x1_S2500000x64_1_0_n_n_0_1_164 D1 (broadcastInDim S2500000x1 ![0] bcast_S2500000_S2500000x1_0 (select (cmpi .slt (shapeCast S2500000 a13 shapeCasts_S5x500000_S2500000) (broadcastInDim S2500000 ![] bcast_S_S2500000 (constantI S_ 32 0#32))) (addi (shapeCast S2500000 a13 shapeCasts_S5x500000_S2500000) (broadcastInDim S2500000 ![] bcast_S_S2500000 (constantI S_ 32 100000#32))) (shapeCast S2500000 a13 shapeCasts_S5x500000_S2500000)))))) (Host.scatterAdd scatter_S50000x64_S500000x1_S500000x64_1_0_0_1 (broadcastInDim S50000x64 ![] bcast_S_S50000x64 (constant S_ .f32 0x00000000#32)) (broadcastInDim S500000x1 ![0] bcast_S500000_S500000x1_0 a18) (mulf (broadcastInDim S500000x64 ![0, 1] bcast_S500000x1_S500000x64_0_1 (broadcastInDim S500000x1 ![0] bcast_S500000_S500000x1_0 a20)) (Host.gather gather_S5000x64_S500000x1_S500000x64_1_0_n_n_0_1_164 D2 (broadcastInDim S500000x1 ![0] bcast_S500000_S500000x1_0 (select (cmpi .slt a19 (broadcastInDim S500000 ![] bcast_S_S500000 (constantI S_ 32 0#32))) (addi a19 (broadcastInDim S500000 ![] bcast_S_S500000 (constantI S_ 32 5000#32))) a19)))))) (broadcastInDim S50000x64 ![] bcast_S_S50000x64 (constant S_ .f32 0x00000000#32))

/-- Messages into the 5000 feature rows: rows of the two dense tables gathered along 1000000 and 500000 edges, scaled, scattered, added and clamped below at zero. -/
def aggF (D1 : (⟨S100000x64, .f32⟩ : BufTy).Contents (Elt F)) (D2 : (⟨S50000x64, .f32⟩ : BufTy).Contents (Elt F)) (a21 : (⟨S1000000, .i32⟩ : BufTy).Contents (Elt F)) (a22 : (⟨S1000000, .i32⟩ : BufTy).Contents (Elt F)) (a23 : (⟨S1000000, .f32⟩ : BufTy).Contents (Elt F)) (a24 : (⟨S500000, .i32⟩ : BufTy).Contents (Elt F)) (a25 : (⟨S500000, .i32⟩ : BufTy).Contents (Elt F)) (a26 : (⟨S500000, .f32⟩ : BufTy).Contents (Elt F)) :
    (⟨S5000x64, .f32⟩ : BufTy).Contents (Elt F) :=
  maximumf (addf (Host.scatterAdd scatter_S5000x64_S1000000x1_S1000000x64_1_0_0_1 (broadcastInDim S5000x64 ![] bcast_S_S5000x64 (constant S_ .f32 0x00000000#32)) (broadcastInDim S1000000x1 ![0] bcast_S1000000_S1000000x1_0 a21) (mulf (broadcastInDim S1000000x64 ![0, 1] bcast_S1000000x1_S1000000x64_0_1 (broadcastInDim S1000000x1 ![0] bcast_S1000000_S1000000x1_0 a23)) (Host.gather gather_S100000x64_S1000000x1_S1000000x64_1_0_n_n_0_1_164 D1 (broadcastInDim S1000000x1 ![0] bcast_S1000000_S1000000x1_0 (select (cmpi .slt a22 (broadcastInDim S1000000 ![] bcast_S_S1000000 (constantI S_ 32 0#32))) (addi a22 (broadcastInDim S1000000 ![] bcast_S_S1000000 (constantI S_ 32 100000#32))) a22))))) (Host.scatterAdd scatter_S5000x64_S500000x1_S500000x64_1_0_0_1 (broadcastInDim S5000x64 ![] bcast_S_S5000x64 (constant S_ .f32 0x00000000#32)) (broadcastInDim S500000x1 ![0] bcast_S500000_S500000x1_0 a24) (mulf (broadcastInDim S500000x64 ![0, 1] bcast_S500000x1_S500000x64_0_1 (broadcastInDim S500000x1 ![0] bcast_S500000_S500000x1_0 a26)) (Host.gather gather_S50000x64_S500000x1_S500000x64_1_0_n_n_0_1_164 D2 (broadcastInDim S500000x1 ![0] bcast_S500000_S500000x1_0 (select (cmpi .slt a25 (broadcastInDim S500000 ![] bcast_S_S500000 (constantI S_ 32 0#32))) (addi a25 (broadcastInDim S500000 ![] bcast_S_S500000 (constantI S_ 32 50000#32))) a25)))))) (broadcastInDim S5000x64 ![] bcast_S_S5000x64 (constant S_ .f32 0x00000000#32))

end Cert.Bridge

end
-- ==== Proof.Sparse.lean ====
/-
  The sparse stretch of the idealized kernel, from ANY buffer contents at its start: the two scatter sums it leaves for
  the 100000-row (50000-row, 5000-row) add-and-clamp region, added and clamped pointwise, are the shared sparse function
  of the two 64-wide tables it gathers from and of the edge lists — the stretch's operations, composed, ARE that
  function's text.
-/
import proofs.«160633_j37941741093201_1_alg».proof.Proof.Gen.KernelIdeal.Launch
import proofs.«160633_j37941741093201_1_alg».proof.Proof.Aggregate
import Idealize.ShloMosaic.Lib.StableHlo.Run

set_option maxRecDepth 16384

noncomputable section

namespace Cert.KernelIdeal.Sparse

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- The buffer contents after the sparse stretch, read at the TensorCore's references. -/
abbrev afterSparse (c : Dev nD) (Wv : Valuation τ sig (Elt F)) (b : Ref sig .tc) : Buf (Elt F) ((c : Thread nD τ).loc b) :=
  StableHlo.after hostOps3 Wv b

/-- The pointwise max(a + b, 0) of equal arrays is equal. -/
theorem clamp_congr {S : Shape} (A A' B B' : S.Idx → Elt F .f32) (hA : A = A') (hB : B = B') :
    (fun i => FloatOps.maximumf (FloatOps.addf (A i) (B i)) (Scalar.ofBits .f32 0x00000000#32) : S.Idx → Elt F .f32)
      = fun i => FloatOps.maximumf (FloatOps.addf (A' i) (B' i)) (Scalar.ofBits .f32 0x00000000#32) := by
  subst hA hB; rfl

/-- Into the 100000 rows. -/
theorem rows_u (c : Dev nD) (Wv : Valuation τ sig (Elt F))
    (D1 : (⟨S50000x64, .f32⟩ : BufTy).Contents (Elt F)) (P2 : (⟨S5000x128, .f32⟩ : BufTy).Contents (Elt F))
    (D2 : (⟨S5000x64, .f32⟩ : BufTy).Contents (Elt F))
    (a9 a10 : (⟨S5x500000, .i32⟩ : BufTy).Contents (Elt F)) (a11 : (⟨S5x500000, .f32⟩ : BufTy).Contents (Elt F))
    (a15 a16 : (⟨S1000000, .i32⟩ : BufTy).Contents (Elt F)) (a17 : (⟨S1000000, .f32⟩ : BufTy).Contents (Elt F))
    (h1 : Wv (Proc.devRef .tc main_v6) = D1) (hP : Wv (Proc.devRef .tc main_v9) = P2)
    (h2 : extractStridedSlice S5000x64 ![0, 0] P2 slices_S5000x128_S5000x64_0_0 = D2)
    (e9 : Wv (Proc.devRef .tc main_arg9) = a9) (e10 : Wv (Proc.devRef .tc main_arg10) = a10)
    (e11 : Wv (Proc.devRef .tc main_arg11) = a11) (e15 : Wv (Proc.devRef .tc main_arg15) = a15)
    (e16 : Wv (Proc.devRef .tc main_arg16) = a16) (e17 : Wv (Proc.devRef .tc main_arg17) = a17) :
    (fun i => FloatOps.maximumf (FloatOps.addf (afterSparse c Wv main_v27 i) (afterSparse c Wv main_v56 i))
        (Scalar.ofBits .f32 0x00000000#32) : S100000x64.Idx → Elt F .f32)
      = Cert.Bridge.aggU D1 D2 a9 a10 a11 a15 a16 a17 := by
  subst h2 hP h1 e9 e10 e11 e15 e16 e17
  have h27 : afterSparse c Wv main_v27 = StableHlo.after hostOps3 Wv (Proc.devRef .tc main_v27) := rfl
  have h56 : afterSparse c Wv main_v56 = StableHlo.after hostOps3 Wv (Proc.devRef .tc main_v56) := rfl
  rw [h27, h56]
  after_results_simp
  rfl

set_option maxHeartbeats 2000000 in
/-- Into the 50000 rows. -/
theorem rows_v (c : Dev nD) (Wv : Valuation τ sig (Elt F))
    (D1 : (⟨S100000x64, .f32⟩ : BufTy).Contents (Elt F)) (P2 : (⟨S5000x128, .f32⟩ : BufTy).Contents (Elt F))
    (D2 : (⟨S5000x64, .f32⟩ : BufTy).Contents (Elt F))
    (a12 a13 : (⟨S5x500000, .i32⟩ : BufTy).Contents (Elt F)) (a14 : (⟨S5x500000, .f32⟩ : BufTy).Contents (Elt F))
    (a18 a19 : (⟨S500000, .i32⟩ : BufTy).Contents (Elt F)) (a20 : (⟨S500000, .f32⟩ : BufTy).Contents (Elt F))
    (h1 : Wv (Proc.devRef .tc main_v2) = D1) (hP : Wv (Proc.devRef .tc main_v9) = P2)
    (h2 : extractStridedSlice S5000x64 ![0, 64] P2 slices_S5000x128_S5000x64_0_64 = D2)
    (e12 : Wv (Proc.devRef .tc main_arg12) = a12) (e13 : Wv (Proc.devRef .tc main_arg13) = a13)
    (e14 : Wv (Proc.devRef .tc main_arg14) = a14) (e18 : Wv (Proc.devRef .tc main_arg18) = a18)
    (e19 : Wv (Proc.devRef .tc main_arg19) = a19) (e20 : Wv (Proc.devRef .tc main_arg20) = a20) :
    (fun i => FloatOps.maximumf (FloatOps.addf (afterSparse c Wv main_v43 i) (afterSparse c Wv main_v69 i))
        (Scalar.ofBits .f32 0x00000000#32) : S50000x64.Idx → Elt F .f32)
      = Cert.Bridge.aggV D1 D2 a12 a13 a14 a18 a19 a20 := by
  subst h2 hP h1 e12 e13 e14 e18 e19 e20
  have hA : afterSparse c Wv main_v43 = StableHlo.after hostOps3 Wv (Proc.devRef .tc main_v43) := rfl
  have hB : afterSparse c Wv main_v69 = StableHlo.after hostOps3 Wv (Proc.devRef .tc main_v69) := rfl
  rw [hA, hB]
  after_results_simp
  rfl

set_option maxHeartbeats 2000000 in
/-- Into the 5000 feature rows. -/
theorem rows_f (c : Dev nD) (Wv : Valuation τ sig (Elt F))
    (D1 : (⟨S100000x64, .f32⟩ : BufTy).Contents (Elt F)) (D2 : (⟨S50000x64, .f32⟩ : BufTy).Contents (Elt F))
    (a21 a22 : (⟨S1000000, .i32⟩ : BufTy).Contents (Elt F)) (a23 : (⟨S1000000, .f32⟩ : BufTy).Contents (Elt F))
    (a24 a25 : (⟨S500000, .i32⟩ : BufTy).Contents (Elt F)) (a26 : (⟨S500000, .f32⟩ : BufTy).Contents (Elt F))
    (h1 : Wv (Proc.devRef .tc main_v3) = D1) (h2 : Wv (Proc.devRef .tc main_v7) = D2)
    (e21 : Wv (Proc.devRef .tc main_arg21) = a21) (e22 : Wv (Proc.devRef .tc main_arg22) = a22)
    (e23 : Wv (Proc.devRef .tc main_arg23) = a23) (e24 : Wv (Proc.devRef .tc main_arg24) = a24)
    (e25 : Wv (Proc.devRef .tc main_arg25) = a25) (e26 : Wv (Proc.devRef .tc main_arg26) = a26) :
    (fun i => FloatOps.maximumf (FloatOps.addf (afterSparse c Wv main_v82 i) (afterSparse c Wv main_v95 i))
        (Scalar.ofBits .f32 0x00000000#32) : S5000x64.Idx → Elt F .f32)
      = Cert.Bridge.aggF D1 D2 a21 a22 a23 a24 a25 a26 := by
  subst h2 h1 e21 e22 e23 e24 e25 e26
  have hA : afterSparse c Wv main_v82 = StableHlo.after hostOps3 Wv (Proc.devRef .tc main_v82) := rfl
  have hB : afterSparse c Wv main_v95 = StableHlo.after hostOps3 Wv (Proc.devRef .tc main_v95) := rfl
  rw [hA, hB]
  after_results_simp
  rfl

end Cert.KernelIdeal.Sparse

end
-- ==== Proof.KernelResults.lean ====
/-
  The idealized kernel's three results as functions of its arguments. Each result array is its add-and-clamp region's
  whole-array value max(a + b, 0) of the two scatter sums the sparse stretch leaves; the sparse stretch is the same
  gather, scale and scatter-add of both programs, applied to column halves of the three dense regions' products; and a
  column half of x·[w₁ | w₂] is the plain product x·w₁ or x·w₂. So each result is the shared sparse function of two plain
  products of the arguments.
-/
import proofs.«160633_j37941741093201_1_alg».proof.Proof.Fold
import proofs.«160633_j37941741093201_1_alg».proof.Proof.ReluBlocks
import proofs.«160633_j37941741093201_1_alg».proof.Proof.DenseBlocks
import proofs.«160633_j37941741093201_1_alg».proof.Proof.DenseHalves
import proofs.«160633_j37941741093201_1_alg».proof.Proof.Aggregate
import proofs.«160633_j37941741093201_1_alg».proof.Proof.Sparse

set_option maxRecDepth 16384

noncomputable section

namespace Cert.KernelIdeal.Results

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat Cfg Window)

variable (m : (ℓ : Loc nD τ sig) → Buf (Elt Ideal) ℓ) (ρ : Dev nD → PrngReg)

/-! ## The six dense tables are plain products of the arguments -/

/-- Columns 0…63 of region 0's product: the first table times its first weight matrix. -/
theorem table_u_left (c : Dev nD) :
    extractStridedSlice S100000x64 ![0, 0] ((dat0 (V1 m ρ) c).arrAt 2 cfg0.N) slices_S100000x128_S100000x64_0_0
      = Host.dotGeneral (F := Ideal) (φ₁ := .f32) (φ₂ := .f32) Cert.ReferenceIdeal.dot_S100000x64_S64x64_S100000x64_1_0_0_1_n_n none (m ((c : Thread nD τ).loc main_arg0)) (m ((c : Thread nD τ).loc main_arg3)) := by
  refine Cert.DenseHalves.left_half (R := 100000) (m ((c : Thread nD τ).loc main_arg0)) (m ((c : Thread nD τ).loc main_arg3)) (m ((c : Thread nD τ).loc main_arg7)) concatenates_S64x64_S64x64_S64x128_d1 _ ?_ _ _ none
  intro a b
  rw [DenseBlocks.product0 (V1 m ρ) c a b, Fold.entry0_rows m ρ c, Fold.entry0_weights m ρ c]

/-- Columns 64…127 of region 0's product: the first table times its second weight matrix. -/
theorem table_u_right (c : Dev nD) :
    extractStridedSlice S100000x64 ![0, 64] ((dat0 (V1 m ρ) c).arrAt 2 cfg0.N) slices_S100000x128_S100000x64_0_64
      = Host.dotGeneral (F := Ideal) (φ₁ := .f32) (φ₂ := .f32) Cert.ReferenceIdeal.dot_S100000x64_S64x64_S100000x64_1_0_0_1_n_n none (m ((c : Thread nD τ).loc main_arg0)) (m ((c : Thread nD τ).loc main_arg7)) := by
  refine Cert.DenseHalves.right_half (R := 100000) (m ((c : Thread nD τ).loc main_arg0)) (m ((c : Thread nD τ).loc main_arg3)) (m ((c : Thread nD τ).loc main_arg7)) concatenates_S64x64_S64x64_S64x128_d1 _ ?_ _ _ none
  intro a b
  rw [DenseBlocks.product0 (V1 m ρ) c a b, Fold.entry0_rows m ρ c, Fold.entry0_weights m ρ c]

/-- Columns 0…63 of region 1's product. -/
theorem table_v_left (c : Dev nD) :
    extractStridedSlice S50000x64 ![0, 0] ((dat1 (V3 m ρ) c).arrAt 2 cfg1.N) slices_S50000x128_S50000x64_0_0
      = Host.dotGeneral (F := Ideal) (φ₁ := .f32) (φ₂ := .f32) Cert.ReferenceIdeal.dot_S50000x64_S64x64_S50000x64_1_0_0_1_n_n none (m ((c : Thread nD τ).loc main_arg1)) (m ((c : Thread nD τ).loc main_arg4)) := by
  refine Cert.DenseHalves.left_half (R := 50000) (m ((c : Thread nD τ).loc main_arg1)) (m ((c : Thread nD τ).loc main_arg4)) (m ((c : Thread nD τ).loc main_arg8)) concatenates_S64x64_S64x64_S64x128_d1 _ ?_ _ _ none
  intro a b
  rw [DenseBlocks.product1 (V3 m ρ) c a b, Fold.entry1_rows m ρ c, Fold.entry1_weights m ρ c]

/-- Columns 64…127 of region 1's product. -/
theorem table_v_right (c : Dev nD) :
    extractStridedSlice S50000x64 ![0, 64] ((dat1 (V3 m ρ) c).arrAt 2 cfg1.N) slices_S50000x128_S50000x64_0_64
      = Host.dotGeneral (F := Ideal) (φ₁ := .f32) (φ₂ := .f32) Cert.ReferenceIdeal.dot_S50000x64_S64x64_S50000x64_1_0_0_1_n_n none (m ((c : Thread nD τ).loc main_arg1)) (m ((c : Thread nD τ).loc main_arg8)) := by
  refine Cert.DenseHalves.right_half (R := 50000) (m ((c : Thread nD τ).loc main_arg1)) (m ((c : Thread nD τ).loc main_arg4)) (m ((c : Thread nD τ).loc main_arg8)) concatenates_S64x64_S64x64_S64x128_d1 _ ?_ _ _ none
  intro a b
  rw [DenseBlocks.product1 (V3 m ρ) c a b, Fold.entry1_rows m ρ c, Fold.entry1_weights m ρ c]

/-- Columns 0…63 of region 2's product. -/
theorem table_f_left (c : Dev nD) :
    extractStridedSlice S5000x64 ![0, 0] ((dat2 (V5 m ρ) c).arrAt 2 cfg2.N) slices_S5000x128_S5000x64_0_0
      = Host.dotGeneral (F := Ideal) (φ₁ := .f32) (φ₂ := .f32) Cert.ReferenceIdeal.dot_S5000x64_S64x64_S5000x64_1_0_0_1_n_n none (m ((c : Thread nD τ).loc main_arg2)) (m ((c : Thread nD τ).loc main_arg5)) := by
  refine Cert.DenseHalves.left_half (R := 5000) (m ((c : Thread nD τ).loc main_arg2)) (m ((c : Thread nD τ).loc main_arg5)) (m ((c : Thread nD τ).loc main_arg6)) concatenates_S64x64_S64x64_S64x128_d1 _ ?_ _ _ none
  intro a b
  rw [DenseBlocks.product2 (V5 m ρ) c a b, Fold.entry2_rows m ρ c, Fold.entry2_weights m ρ c]

/-- Columns 64…127 of region 2's product. -/
theorem table_f_right (c : Dev nD) :
    extractStridedSlice S5000x64 ![0, 64] ((dat2 (V5 m ρ) c).arrAt 2 cfg2.N) slices_S5000x128_S5000x64_0_64
      = Host.dotGeneral (F := Ideal) (φ₁ := .f32) (φ₂ := .f32) Cert.ReferenceIdeal.dot_S5000x64_S64x64_S5000x64_1_0_0_1_n_n none (m ((c : Thread nD τ).loc main_arg2)) (m ((c : Thread nD τ).loc main_arg6)) := by
  refine Cert.DenseHalves.right_half (R := 5000) (m ((c : Thread nD τ).loc main_arg2)) (m ((c : Thread nD τ).loc main_arg5)) (m ((c : Thread nD τ).loc main_arg6)) concatenates_S64x64_S64x64_S64x128_d1 _ ?_ _ _ none
  intro a b
  rw [DenseBlocks.product2 (V5 m ρ) c a b, Fold.entry2_rows m ρ c, Fold.entry2_weights m ρ c]

/-! ## The three results -/

/-- The messages into the 100000 rows. -/
theorem result_u (c : Dev nD) : W10 m ρ c (Proc.devRef .tc main_v96)
    = Cert.Bridge.aggU (F := Ideal)
        (Host.dotGeneral (F := Ideal) (φ₁ := .f32) (φ₂ := .f32) Cert.ReferenceIdeal.dot_S50000x64_S64x64_S50000x64_1_0_0_1_n_n none (m ((c : Thread nD τ).loc main_arg1)) (m ((c : Thread nD τ).loc main_arg4)))
        (Host.dotGeneral (F := Ideal) (φ₁ := .f32) (φ₂ := .f32) Cert.ReferenceIdeal.dot_S5000x64_S64x64_S5000x64_1_0_0_1_n_n none (m ((c : Thread nD τ).loc main_arg2)) (m ((c : Thread nD τ).loc main_arg5)))
        (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  refine (Fold.result_u m ρ c).trans ((ReluBlocks.sumRelu3 (V7 m ρ) c).trans ?_)
  have hA : V7 m ρ c main_v27 = Sparse.afterSparse c (W6 m ρ c) main_v27 := rfl
  have hB : V7 m ρ c main_v56 = Sparse.afterSparse c (W6 m ρ c) main_v56 := rfl
  refine (Sparse.clamp_congr _ _ _ _ hA hB).trans ?_
  exact Sparse.rows_u c (W6 m ρ c) _ _ _ _ _ _ _ _ _
    ((Fold.W6_main_v6 m ρ c).trans (table_v_left m ρ c)) (Fold.W6_main_v9 m ρ c) (table_f_left m ρ c)
    (Fold.W6_main_arg9 m ρ c) (Fold.W6_main_arg10 m ρ c) (Fold.W6_main_arg11 m ρ c) (Fold.W6_main_arg15 m ρ c) (Fold.W6_main_arg16 m ρ c) (Fold.W6_main_arg17 m ρ c)

/-- The messages into the 50000 rows. -/
theorem result_v (c : Dev nD) : W10 m ρ c (Proc.devRef .tc main_v97)
    = Cert.Bridge.aggV (F := Ideal)
        (Host.dotGeneral (F := Ideal) (φ₁ := .f32) (φ₂ := .f32) Cert.ReferenceIdeal.dot_S100000x64_S64x64_S100000x64_1_0_0_1_n_n none (m ((c : Thread nD τ).loc main_arg0)) (m ((c : Thread nD τ).loc main_arg3)))
        (Host.dotGeneral (F := Ideal) (φ₁ := .f32) (φ₂ := .f32) Cert.ReferenceIdeal.dot_S5000x64_S64x64_S5000x64_1_0_0_1_n_n none (m ((c : Thread nD τ).loc main_arg2)) (m ((c : Thread nD τ).loc main_arg6)))
        (m ((c : Thread nD τ).loc main_arg12)) (m ((c : Thread nD τ).loc main_arg13)) (m ((c : Thread nD τ).loc main_arg14)) (m ((c : Thread nD τ).loc main_arg18)) (m ((c : Thread nD τ).loc main_arg19)) (m ((c : Thread nD τ).loc main_arg20)) := by
  refine (Fold.result_v m ρ c).trans ((ReluBlocks.sumRelu4 (V8 m ρ) c).trans ?_)
  have hA : V8 m ρ c main_v43 = Sparse.afterSparse c (W6 m ρ c) main_v43 := W8_of_ne m ρ c main_v43 (by decide)
  have hB : V8 m ρ c main_v69 = Sparse.afterSparse c (W6 m ρ c) main_v69 := W8_of_ne m ρ c main_v69 (by decide)
  refine (Sparse.clamp_congr _ _ _ _ hA hB).trans ?_
  exact Sparse.rows_v c (W6 m ρ c) _ _ _ _ _ _ _ _ _
    ((Fold.W6_main_v2 m ρ c).trans (table_u_left m ρ c)) (Fold.W6_main_v9 m ρ c) (table_f_right m ρ c)
    (Fold.W6_main_arg12 m ρ c) (Fold.W6_main_arg13 m ρ c) (Fold.W6_main_arg14 m ρ c) (Fold.W6_main_arg18 m ρ c) (Fold.W6_main_arg19 m ρ c) (Fold.W6_main_arg20 m ρ c)

/-- The messages into the 5000 feature rows. -/
theorem result_f (c : Dev nD) : W10 m ρ c (Proc.devRef .tc main_v98)
    = Cert.Bridge.aggF (F := Ideal)
        (Host.dotGeneral (F := Ideal) (φ₁ := .f32) (φ₂ := .f32) Cert.ReferenceIdeal.dot_S100000x64_S64x64_S100000x64_1_0_0_1_n_n none (m ((c : Thread nD τ).loc main_arg0)) (m ((c : Thread nD τ).loc main_arg7)))
        (Host.dotGeneral (F := Ideal) (φ₁ := .f32) (φ₂ := .f32) Cert.ReferenceIdeal.dot_S50000x64_S64x64_S50000x64_1_0_0_1_n_n none (m ((c : Thread nD τ).loc main_arg1)) (m ((c : Thread nD τ).loc main_arg8)))
        (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (Fold.result_f m ρ c).trans ((ReluBlocks.sumRelu5 (V9 m ρ) c).trans ?_)
  have hA : V9 m ρ c main_v82 = Sparse.afterSparse c (W6 m ρ c) main_v82 :=
    (W9_of_ne m ρ c main_v82 (by decide)).trans (W8_of_ne m ρ c main_v82 (by decide))
  have hB : V9 m ρ c main_v95 = Sparse.afterSparse c (W6 m ρ c) main_v95 :=
    (W9_of_ne m ρ c main_v95 (by decide)).trans (W8_of_ne m ρ c main_v95 (by decide))
  refine (Sparse.clamp_congr _ _ _ _ hA hB).trans ?_
  exact Sparse.rows_f c (W6 m ρ c) _ _ _ _ _ _ _ _
    ((Fold.W6_main_v3 m ρ c).trans (table_u_right m ρ c)) ((Fold.W6_main_v7 m ρ c).trans (table_v_right m ρ c))
    (Fold.W6_main_arg21 m ρ c) (Fold.W6_main_arg22 m ρ c) (Fold.W6_main_arg23 m ρ c) (Fold.W6_main_arg24 m ρ c) (Fold.W6_main_arg25 m ρ c) (Fold.W6_main_arg26 m ρ c)

end Cert.KernelIdeal.Results

end
-- ==== Proof.lean ====
/-
  Both programs pass messages over a graph with three node sets. Dense half: each node table (100000×64, 50000×64,
  5000×64) is multiplied by two 64×64 weight matrices. The reference forms the six products one by one; the kernel forms
  each pair as ONE product with the two weight matrices side by side (64×128), in row blocks of 5000, and cuts the result
  into its left and right 64 columns — term by term the same sums, since column b of [w₁ | w₂] is column b of w₁ and column
  64 + b is column b of w₂ (the kernel's rounding of the factors to a narrower format on the way into the matrix unit is the
  identity on extended reals). Sparse half: both programs gather rows of those products along the same edge lists, scale each
  by its edge value and add it into its destination row — the same host operations on equal tables, so they are carried as
  one function and never opened. Last, the reference adds the two sums per node set and clamps below at zero on the host;
  the kernel does so in a third kind of region, block by block, which is the same pointwise max(a + b, 0).
  No law of the extended reals beyond reading terms where they sit is used, so the inputs' finiteness is never opened.
-/
import proofs.«160633_j37941741093201_1_alg».proof.Defs
import proofs.«160633_j37941741093201_1_alg».proof.Proof.Gen.Kernel
import proofs.«160633_j37941741093201_1_alg».proof.Proof.Gen.Kernel.Skeleton
import proofs.«160633_j37941741093201_1_alg».proof.Proof.Gen.Kernel.Launch
import proofs.«160633_j37941741093201_1_alg».proof.Proof.Gen.Kernel.Points
import proofs.«160633_j37941741093201_1_alg».proof.Proof.Gen.Kernel.Frame
import proofs.«160633_j37941741093201_1_alg».proof.Proof.Gen.KernelIdeal
import proofs.«160633_j37941741093201_1_alg».proof.Proof.Gen.KernelIdeal.Skeleton
import proofs.«160633_j37941741093201_1_alg».proof.Proof.Gen.KernelIdeal.Launch
import proofs.«160633_j37941741093201_1_alg».proof.Proof.Gen.KernelIdeal.Points
import proofs.«160633_j37941741093201_1_alg».proof.Proof.Gen.KernelIdeal.Frame
import proofs.«160633_j37941741093201_1_alg».proof.Proof.Gen.ReferenceIdeal
import proofs.«160633_j37941741093201_1_alg».proof.Proof.Gen.Pre_finite_inputs
import proofs.«160633_j37941741093201_1_alg».proof.Proof.Gen.ReferenceIdeal.Run
import proofs.«160633_j37941741093201_1_alg».proof.Proof.Gen.ReferenceIdeal.Read
import proofs.«160633_j37941741093201_1_alg».proof.Proof.KernelRun
import proofs.«160633_j37941741093201_1_alg».proof.Proof.KernelResults
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments both programs end with each result at the shared sparse function of the
    same two plain products of the arguments. -/
theorem algebraic : Cert.algebraic_KernelIdeal_ReferenceIdeal := by
  intro m ρ m' ρ' _ hagree
  refine ⟨_, _, _, Cert.KernelIdeal.Named.run_named (F := Ideal) m ρ, ?_⟩
  refine (θ_run Cert.ReferenceIdeal.defs _ _).mono (fun r h c => ?_) (Cert.ReferenceIdeal.Value.run (F := Ideal) m' ρ')
  obtain ⟨h93, h94, h95, hargs⟩ := h c
  obtain ⟨e0, e1, e2, e3, e4, e5, e6, e7, e8, e9, e10, e11, e12, e13, e14, e15, e16, e17, e18, e19, e20, e21, e22, e23, e24, e25, e26⟩ := hagree c
  refine ⟨h93.trans ?_, h94.trans ?_, h95.trans ?_, hargs⟩
  · rw [Cert.KernelIdeal.Results.result_u m ρ c, ← e1, ← e4, ← e2, ← e5, ← e9, ← e10, ← e11, ← e15, ← e16, ← e17]
    rfl
  · rw [Cert.KernelIdeal.Results.result_v m ρ c, ← e0, ← e3, ← e2, ← e6, ← e12, ← e13, ← e14, ← e18, ← e19, ← e20]
    rfl
  · rw [Cert.KernelIdeal.Results.result_f m ρ c, ← e0, ← e7, ← e1, ← e8, ← e21, ← e22, ← e23, ← e24, ← e25, ← e26]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
